-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256x128 .f32) (main_arg7 : FVec F S256x128 .f32) (main_arg8 : FVec F S128 .f32) (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S600000 32) (main_arg2 : IVec S600000 32) (main_arg3 : FVec F S128x256 .f32) (main_arg4 : FVec F S128x256 .f32) (main_arg5 : FVec F S256 .f32) (main_arg6 : FVec F S256x128 .f32) (main_arg7 : FVec F S256x128 .f32) (main_arg8 : FVec F S128 .f32) (main_arg9 : FVec F S256x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x256 : Shape := ⟨2, ![1, 256]⟩
abbrev S100000x256 : Shape := ⟨2, ![100000, 256]⟩
abbrev S600000x256 : Shape := ⟨2, ![600000, 256]⟩
abbrev S128x1 : Shape := ⟨2, ![128, 1]⟩
abbrev S128x2 : Shape := ⟨2, ![128, 2]⟩
abbrev S1x128 : Shape := ⟨2, ![1, 128]⟩
abbrev S100000x2 : Shape := ⟨2, ![100000, 2]⟩
abbrev S600000x2 : Shape := ⟨2, ![600000, 2]⟩
abbrev S5000x128 : Shape := ⟨2, ![5000, 128]⟩
abbrev S5000x1 : Shape := ⟨2, ![5000, 1]⟩
abbrev S5000x256 : Shape := ⟨2, ![5000, 256]⟩
abbrev S4000x256 : Shape := ⟨2, ![4000, 256]⟩
abbrev S4000x1 : Shape := ⟨2, ![4000, 1]⟩
abbrev S4000x2 : Shape := ⟨2, ![4000, 2]⟩
abbrev S4000x128 : Shape := ⟨2, ![4000, 128]⟩

abbrev nBuf : Space → Nat
  | .hbm => 91
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S600000, .i32⟩
  | .hbm, ⟨13, _⟩ => ⟨S_, .i32⟩
  | .hbm, ⟨14, _⟩ => ⟨S100000, .i32⟩
  | .hbm, ⟨15, _⟩ => ⟨S600000x1, .i32⟩
  | .hbm, ⟨16, _⟩ => ⟨S100000, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S1x256, .f32⟩
  | .hbm, ⟨39, _⟩ => ⟨S100000x256, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x256, .f32⟩
  | .hbm, ⟨49, _⟩ => ⟨S_, .f32⟩
  | .hbm, ⟨50, _⟩ => ⟨S100000x256, .f32⟩
  | .hbm, ⟨51, _⟩ => ⟨S600000x1, .i32⟩
  | .hbm, ⟨52, _⟩ => ⟨S100000x256, .f32⟩
  | .hbm, ⟨53, _⟩ => ⟨S128x1, .f32⟩
  | .hbm, ⟨54, _⟩ => ⟨S128x1, .f32⟩
  | .hbm, ⟨55, _⟩ => ⟨S128x2, .f32⟩
  | .hbm, ⟨56, _⟩ => ⟨S1x128, .f32⟩
  | .hbm, ⟨57, _⟩ => ⟨S100000x2, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x1, .i32⟩
  | .hbm, ⟨70, _⟩ => ⟨S600000x2, .i32⟩
  | .hbm, ⟨71, _⟩ => ⟨S600000, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x1, .i32⟩
  | .hbm, ⟨84, _⟩ => ⟨S600000x2, .i32⟩
  | .hbm, ⟨85, _⟩ => ⟨S600000, .f32⟩
  | .hbm, ⟨86, _⟩ => ⟨S600000, .f32⟩
  | .hbm, ⟨87, _⟩ => ⟨S_, .f32⟩
  | .hbm, ⟨88, _⟩ => ⟨S600000, .f32⟩
  | .hbm, ⟨89, _⟩ => ⟨S600000, .f32⟩
  | .hbm, ⟨90, _⟩ => ⟨S600000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S5000x256, .f32⟩
  | .local _ .vmem, ⟨10, _⟩ => ⟨S5000x256, .f32⟩
  | .local _ .vmem, ⟨11, _⟩ => ⟨S4000x256, .f32⟩
  | .local _ .vmem, ⟨12, _⟩ => ⟨S4000x256, .f32⟩
  | .local _ .vmem, ⟨13, _⟩ => ⟨S4000x256, .f32⟩
  | .local _ .vmem, ⟨14, _⟩ => ⟨S4000x256, .f32⟩
  | .local _ .vmem, ⟨15, _⟩ => ⟨S4000x1, .f32⟩
  | .local _ .vmem, ⟨16, _⟩ => ⟨S4000x1, .f32⟩
  | .local _ .vmem, ⟨17, _⟩ => ⟨S256x128, .f32⟩
  | .local _ .vmem, ⟨18, _⟩ => ⟨S256x128, .f32⟩
  | .local _ .vmem, ⟨19, _⟩ => ⟨S1x128, .f32⟩
  | .local _ .vmem, ⟨20, _⟩ => ⟨S128x2, .f32⟩
  | .local _ .vmem, ⟨21, _⟩ => ⟨S4000x2, .f32⟩
  | .local _ .vmem, ⟨22, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_c_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c_2 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_cst_4 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_c_5 : Ref sig .tc := ⟨.hbm, 40, rfl⟩
abbrev main_call0_v22 : Ref sig .tc := ⟨.hbm, 41, rfl⟩
abbrev main_call0_v23 : Ref sig .tc := ⟨.hbm, 42, rfl⟩
abbrev main_call0_c_6 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_cst_7 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_v35 : Ref sig .tc := ⟨.hbm, 56, rfl⟩
abbrev main_call0_v36 : Ref sig .tc := ⟨.hbm, 57, rfl⟩
abbrev main_call0_c_8 : Ref sig .tc := ⟨.hbm, 58, rfl⟩
abbrev main_call0_v37 : Ref sig .tc := ⟨.hbm, 59, rfl⟩
abbrev main_call0_v38 : Ref sig .tc := ⟨.hbm, 60, rfl⟩
abbrev main_call0_c_9 : Ref sig .tc := ⟨.hbm, 61, rfl⟩
abbrev main_call0_v39 : Ref sig .tc := ⟨.hbm, 62, rfl⟩
abbrev main_call0_v40 : Ref sig .tc := ⟨.hbm, 63, rfl⟩
abbrev main_call0_v41 : Ref sig .tc := ⟨.hbm, 64, rfl⟩
abbrev main_call0_c_10 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_v45 : Ref sig .tc := ⟨.hbm, 69, rfl⟩
abbrev main_call0_v46 : Ref sig .tc := ⟨.hbm, 70, rfl⟩
abbrev main_call0_v47 : Ref sig .tc := ⟨.hbm, 71, rfl⟩
abbrev main_call0_c_11 : Ref sig .tc := ⟨.hbm, 72, rfl⟩
abbrev main_call0_v48 : Ref sig .tc := ⟨.hbm, 73, rfl⟩
abbrev main_call0_v49 : Ref sig .tc := ⟨.hbm, 74, rfl⟩
abbrev main_call0_c_12 : Ref sig .tc := ⟨.hbm, 75, rfl⟩
abbrev main_call0_v50 : Ref sig .tc := ⟨.hbm, 76, rfl⟩
abbrev main_call0_v51 : Ref sig .tc := ⟨.hbm, 77, rfl⟩
abbrev main_call0_v52 : Ref sig .tc := ⟨.hbm, 78, rfl⟩
abbrev main_call0_c_13 : Ref sig .tc := ⟨.hbm, 79, rfl⟩
abbrev main_call0_v53 : Ref sig .tc := ⟨.hbm, 80, rfl⟩
abbrev main_call0_v54 : Ref sig .tc := ⟨.hbm, 81, rfl⟩
abbrev main_call0_v55 : Ref sig .tc := ⟨.hbm, 82, rfl⟩
abbrev main_call0_v56 : Ref sig .tc := ⟨.hbm, 83, rfl⟩
abbrev main_call0_v57 : Ref sig .tc := ⟨.hbm, 84, rfl⟩
abbrev main_call0_v58 : Ref sig .tc := ⟨.hbm, 85, rfl⟩
abbrev main_call0_v59 : Ref sig .tc := ⟨.hbm, 86, rfl⟩
abbrev main_call0_v60 : Ref sig .tc := ⟨.hbm, 87, rfl⟩
abbrev main_call0_v61 : Ref sig .tc := ⟨.hbm, 88, rfl⟩
abbrev main_call0_v62 : Ref sig .tc := ⟨.hbm, 89, rfl⟩
abbrev main_v0 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bcast_S_S100000x128 : S_.BroadcastsInDim S100000x128 (![] : Fin 0 → Fin S100000x128.rank)
  shapeCasts_S256_S1x256 : S256.ShapeCasts S1x256
  bcast_S_S100000x256 : S_.BroadcastsInDim S100000x256 (![] : Fin 0 → Fin S100000x256.rank)
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  shapeCasts_S128_S1x128 : S128.ShapeCasts S1x128
  concatenates_S600000x1_S600000x1_S600000x2_d1 : Shape.Concatenates [S600000x1, S600000x1] S600000x2 1
  shapeCasts_S1_S_ : S1.ShapeCasts S_
  shapeCasts_S600000_S600000x1 : S600000.ShapeCasts S600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S4000x2_S4000x2_0_0 : ∀ a, (![0, 0] : Fin 2 → Nat) a + S4000x2.size a ≤ S4000x2.size a
  h_S4000x2 : 0 < S4000x2.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  gather_S100000x2_S600000x2_S600000_n_01_n_n_01_1_11_wf : GatherDims.WF S100000x2 S600000x2 S600000 [] [0, 1] [] [0, 1] [] 1 ![1, 1]
  dot_S5000x128_S128x256_S5000x256_1_0_0_1_n_n_wf : DotDims.WF S5000x128 S128x256 S5000x256 [1] [0] [0] [1] [] []
  dot_S4000x256_S256x128_S4000x128_1_0_0_1_n_n_wf : DotDims.WF S4000x256 S256x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S100000x256.size a
  hwx0_6 : ∀ i : grid0.Coords, EltTy.bits .f32 = 32 ∨ (Rect.block (s := S100000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x2.size a ≤ S100000x2.size a
  hwx1_7 : ∀ i : grid1.Coords, EltTy.bits .f32 = 32 ∨ (Rect.block (s := S100000x2) S4000x2.size (cc1_transform_7 i) (hinb1_7 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def gather_S100000x2_S600000x2_S600000_n_01_n_n_01_1_11 : GatherDims S100000x2 S600000x2 S600000 where
  offsetDims := []
  collapsedSliceDims := [0, 1]
  operandBatchingDims := []
  startIndicesBatchingDims := []
  startIndexMap := [0, 1]
  indexVectorDim := 1
  sliceSizes := ![1, 1]
  wf := gather_S100000x2_S600000x2_S600000_n_01_n_n_01_1_11_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v21) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v21) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v31) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v9) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v34) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v36) S4000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S600000x256 : Shape := ⟨2, ![600000, 256]⟩
abbrev S1x128 : Shape := ⟨2, ![1, 128]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x256, .f32⟩
  | .hbm, ⟨37, _⟩ => ⟨S100000x256, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S_, .f32⟩
  | .hbm, ⟨43, _⟩ => ⟨S100000x256, .f32⟩
  | .hbm, ⟨44, _⟩ => ⟨S100000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S100000x256, .f32⟩
  | .hbm, ⟨56, _⟩ => ⟨S600000x1, .i32⟩
  | .hbm, ⟨57, _⟩ => ⟨S100000x256, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S100000, .f32⟩
  | .hbm, ⟨62, _⟩ => ⟨S600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x256, .f32⟩
  | .hbm, ⟨69, _⟩ => ⟨S100000x256, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S600000x256, .f32⟩
  | .hbm, ⟨95, _⟩ => ⟨S600000x1, .f32⟩
  | .hbm, ⟨96, _⟩ => ⟨S1x1, .f32⟩
  | .hbm, ⟨97, _⟩ => ⟨S600000x1, .f32⟩
  | .hbm, ⟨98, _⟩ => ⟨S600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S600000x128_S600000x128_S600000x256_d1 : Shape.Concatenates [S600000x128, S600000x128] S600000x256 1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x128_S100000x128_1_0_0_1_n_n_wf : DotDims.WF S100000x256 S256x128 S100000x128 [1] [0] [0] [1] [] []
  dot_S600000x256_S256x1_S600000x1_1_0_0_1_n_n_wf : DotDims.WF S600000x256 S256x1 S600000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S600000x256_S256x1_S600000x1_1_0_0_1_n_n : DotDims S600000x256 S256x1 S600000x1 where
  lhsContracting := [1]
  rhsContracting := [0]
  lhsNonContracting := [0]
  rhsNonContracting := [1]
  lhsBatch := []
  rhsBatch := []
  wf := dot_S600000x256_S256x1_S600000x1_1_0_0_1_n_n_wf

class Facts : Prop extends Facts₀ where

variable [Facts]
-- ==== Proof.KRun.lean ====
/-
  The kernel program's run with its result named. Every weakly fair execution of the program terminates, nothing
  faulting, the argument arrays unchanged, and the result array holds what the fold of the program's five segments
  leaves there: the contents after the last stretch of host operations, computed from the second region's exit
  contents, themselves computed from the contents after the middle stretch, and so on back to the launch memory
  (`W5`, over `W4`, …, `W0`). The last thread state holds every unscoped buffer at those contents; the
  conclusion reads the result buffer and the eleven arguments off it.
-/
import proofs.«131474_j31662498906598_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents. -/
theorem run_value : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.RunValue

end
-- ==== Proof.KTerms.lean ====
/-
  The arrays the kernel program's host operations compute, as terms of the arrays they read: an edge endpoint list
  as a column of row numbers (plain, or with negative words wrapped by the node count), the in-degree count and the
  reciprocal of the clamped degree, the neighbour sums of a feature array (rows gathered at the sources and summed
  into the destination rows), the two halves of the edge weights laid side by side, and the edge scores read off the
  per-node partial scores.
-/
import proofs.«131474_j31662498906598_2_alg».proof.Proof.Gen.KernelIdeal
import Idealize.ShloMosaic.PureOps.Ideal.Laws

noncomputable section

namespace Cert.KernelIdeal.Terms

open Cert.KernelIdeal Cert.KernelIdeal.Gen Idealize.ShloMosaic

/-- An edge endpoint list as an [E,1] column of row numbers, negative words wrapped by the node count. -/
def wrapCol (i : IVec S600000 32) : IVec S600000x1 32 :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 100000#32))) i)

/-- An edge endpoint list as an [E,1] column of row numbers, as it is. -/
def plainCol (i : IVec S600000 32) : IVec S600000x1 32 :=
  broadcastInDim S600000x1 ![0] bcast_S600000_S600000x1_0 i

/-- The int32 in-degree count: ones scattered, accumulating, into zeros at the destination rows. -/
def degWord (dst : IVec S600000 32) : IVec S100000 32 :=
  Host.scatter scatter_S100000_S600000x1_S600000_n_0_0_1 IntOp.addi
    (broadcastInDim S100000 ![] bcast_S_S100000 (constantI S_ 32 0#32)) (plainCol dst)
    (broadcastInDim S600000 ![] bcast_S_S600000 (constantI S_ 32 1#32))

/-- The reciprocal of the in-degree clamped below by one, as an [N,1] column. -/
def invDeg (dst : IVec S600000 32) : FVec Ideal S100000x1 .f32 :=
  shapeCast S100000x1
    (Host.divf (broadcastInDim S100000 ![] bcast_S_S100000 (constant S_ .f32 0x3F800000#32))
      (maximumf (sitofp .f32 (degWord dst)) (broadcastInDim S100000 ![] bcast_S_S100000 (constant S_ .f32 0x3F800000#32))))
    shapeCasts_S100000_S100000x1

/-- The neighbour sums of a [N,128] feature array: rows gathered at the wrapped sources, summed into the destination rows. -/
def agg128 (h : FVec Ideal S100000x128 .f32) (src dst : IVec S600000 32) : FVec Ideal S100000x128 .f32 :=
  Host.scatterAdd scatter_S100000x128_S600000x1_S600000x128_1_0_0_1
    (broadcastInDim S100000x128 ![] bcast_S_S100000x128 (constant S_ .f32 0x00000000#32)) (plainCol dst)
    (Host.gather gather_S100000x128_S600000x1_S600000x128_1_0_n_n_0_1_1128 h (wrapCol src))

/-- The neighbour sums of a [N,256] feature array. -/
def agg256 (h : FVec Ideal S100000x256 .f32) (src dst : IVec S600000 32) : FVec Ideal S100000x256 .f32 :=
  Host.scatterAdd scatter_S100000x256_S600000x1_S600000x256_1_0_0_1
    (broadcastInDim S100000x256 ![] bcast_S_S100000x256 (constant S_ .f32 0x00000000#32)) (plainCol dst)
    (Host.gather gather_S100000x256_S600000x1_S600000x256_1_0_n_n_0_1_1256 h (wrapCol src))

/-- The [256,1] edge weights as a [128,2] array: rows 0 … 127 in column 0, rows 128 … 255 in column 1. -/
def edgePair (we : FVec Ideal S256x1 .f32) : FVec Ideal S128x2 .f32 :=
  concatenate S128x2 1 [⟨S128x1, extractStridedSlice S128x1 ![0, 0] we slices_S256x1_S128x1_0_0⟩,
    ⟨S128x1, extractStridedSlice S128x1 ![128, 0] we slices_S256x1_S128x1_128_0⟩] concatenates_S128x1_S128x1_S128x2_d1

/-- The (row, column) pairs that read column `col` of the per-node partial scores at the wrapped endpoints. -/
def pairIdx (i : IVec S600000 32) (col : BitVec 32) : IVec S600000x2 32 :=
  concatenate S600000x2 1 [⟨S600000x1, wrapCol i⟩,
    ⟨S600000x1, broadcastInDim S600000x1 ![0] bcast_S600000_S600000x1_0
      (id (broadcastInDim S600000 ![] bcast_S_S600000 (constantI S_ 32 col)))⟩] concatenates_S600000x1_S600000x1_S600000x2_d1

/-- The edge scores from the per-node partial scores `s` [N,2]: column 0 at the source plus column 1 at the
    destination plus the scalar bias, as an [E,1] array. -/
def scores (s : FVec Ideal S100000x2 .f32) (src dst : IVec S600000 32) (be : FVec Ideal S1 .f32) : FVec Ideal S600000x1 .f32 :=
  shapeCast S600000x1
    (addf
      (addf (Host.gather gather_S100000x2_S600000x2_S600000_n_01_n_n_01_1_11 s (pairIdx src 0#32))
        (Host.gather gather_S100000x2_S600000x2_S600000_n_01_n_n_01_1_11 s (pairIdx dst 1#32)))
      (broadcastInDim S600000 ![] bcast_S_S600000 (shapeCast S_ be shapeCasts_S1_S_)))
    shapeCasts_S600000_S600000x1

end Cert.KernelIdeal.Terms

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.LibTRefCasts.lean ====
/-
  Contents carried to a typed reference's buffer and back.

  A module-local function's operations are stated over typed references: a reference together with a proof that its
  buffer's type is the tensor value's. Writing through one transports contents along that equation, reading transports
  them back. Written and then read through the same typed reference, contents are unchanged; and at a reference whose
  buffer type IS the value type each transport alone is the identity. General: nothing here depends on a program.
-/
import Idealize.ShloMosaic.Lib.StableHlo

namespace Cert.LibTRefCasts

open Idealize.ShloMosaic Idealize.ShloMosaic.StableHlo

variable {sig : RefSig} {Val : EltTy → Type}

/-- Contents written through a typed reference and read back through it are unchanged. -/
theorem ofBuf_toBuf {T : BufTy} (x : TRef sig T) (v : T.Contents Val) : x.ofBuf (x.toBuf v) = v := by
  obtain ⟨r, h, _, _⟩ := x
  subst h
  rfl

/-- Contents read through a typed reference and written back through it are unchanged. -/
theorem toBuf_ofBuf {T : BufTy} (x : TRef sig T) (v : x.ref.ty.Contents Val) : x.toBuf (x.ofBuf v) = v := by
  obtain ⟨r, h, _, _⟩ := x
  subst h
  rfl

/-- Contents written through a typed reference whose value type is the buffer's own type are unchanged. -/
theorem toBuf_self (r : Ref sig .tc) (h1 : r.ty = r.ty) (h2 : r.space ≠ .host) (h3 : r.isScoped = false) (v : r.ty.Contents Val) :
    (TRef.of (T := r.ty) r h1 h2 h3).toBuf v = v := rfl

/-- Contents read through a typed reference whose value type is the buffer's own type are unchanged. -/
theorem ofBuf_self (r : Ref sig .tc) (h1 : r.ty = r.ty) (h2 : r.space ≠ .host) (h3 : r.isScoped = false) (v : r.ty.Contents Val) :
    (TRef.of (T := r.ty) r h1 h2 h3).ofBuf v = v := rfl

end Cert.LibTRefCasts
-- ==== Proof.KFolds.lean ====
/-
  What the kernel program's buffers hold at each boundary between its segments, read back to the launch arrays:
  the reciprocal clamped in-degree and the first neighbour sums after the first stretch of host operations; the first
  region's result, the second neighbour sums, the paired edge weights and the bias rows after the middle stretch; and
  the result array after the last stretch, as the edge scores read off the second region's result.
-/
import proofs.«131474_j31662498906598_2_alg».proof.Proof.Gen.KernelIdeal.Frame
import proofs.«131474_j31662498906598_2_alg».proof.Proof.KTerms
import proofs.«131474_j31662498906598_2_alg».proof.Proof.LibKeeps
import proofs.«131474_j31662498906598_2_alg».proof.Proof.LibTRefCasts
import Idealize.ShloMosaic.PureOps.Ideal.Laws
import Idealize.ShloMosaic.Lib.ValueIdx
import Idealize.ShloMosaic.Lib.Pipeline.Value

set_option maxRecDepth 16384

noncomputable section

namespace Cert.KernelIdeal.Folds

open Cert.KernelIdeal Cert.KernelIdeal.Gen Cert.KernelIdeal.Terms
open Idealize.ShloMosaic Idealize.ShloMosaic.TcCoe Idealize.ShloMosaic.StableHlo Idealize.SL.Sem

/-! ## Each stretch of host operations over ANY entry contents `V` -/

section Reads
variable (V : Valuation τ sig (Elt Ideal))

set_option maxHeartbeats 8000000 in
/-- The first stretch leaves the reciprocal of the clamped in-degree, computed from the destination list. -/
theorem read0_v9 : after hostOps0 V (Proc.devRef .tc main_call0_v9) = invDeg (V (Proc.devRef .tc main_arg2)) := by
  set_option maxRecDepth 100000 in after_results_simp
  simp only [Cert.LibTRefCasts.ofBuf_toBuf]
  have ha : (TRef.of (sig := sig) (T := ⟨S600000, .i32⟩) main_arg2).ofBuf (V (Proc.tc.devRef main_arg2))
      = V (Proc.devRef .tc main_arg2) := rfl
  rw [ha]
  have hb : Host.scatter scatter_S100000_S600000x1_S600000_n_0_0_1 IntOp.addi
        (broadcastInDim S100000 ![] bcast_S_S100000 (constantI S_ 32 0#32))
        (broadcastInDim S600000x1 ![0] bcast_S600000_S600000x1_0 (V (Proc.devRef .tc main_arg2)))
        (broadcastInDim S600000 ![] bcast_S_S600000 (constantI S_ 32 1#32)) = degWord (V (Proc.devRef .tc main_arg2)) := rfl
  rw [hb]
  rfl

set_option maxHeartbeats 8000000 in
/-- The first stretch leaves the neighbour sums of the node features. -/
theorem read0_v19 : after hostOps0 V (Proc.devRef .tc main_call0_v19)
    = agg128 (V (Proc.devRef .tc main_arg0)) (V (Proc.devRef .tc main_arg1)) (V (Proc.devRef .tc main_arg2)) := by
  set_option maxRecDepth 100000 in after_results_simp
  simp only [Cert.LibTRefCasts.ofBuf_toBuf]
  rfl

set_option maxHeartbeats 8000000 in
/-- The first stretch leaves the first bias as a one-row array. -/
theorem read0_v20 : after hostOps0 V (Proc.devRef .tc main_call0_v20)
    = shapeCast S1x256 (V (Proc.devRef .tc main_arg5)) shapeCasts_S256_S1x256 := by
  set_option maxRecDepth 100000 in after_results_simp
  rfl

set_option maxHeartbeats 8000000 in
/-- The middle stretch leaves the neighbour sums of the first region's result. -/
theorem read1_v31 : after hostOps1 V (Proc.devRef .tc main_call0_v31)
    = agg256 (V (Proc.devRef .tc main_call0_v21)) (V (Proc.devRef .tc main_arg1)) (V (Proc.devRef .tc main_arg2)) := by
  set_option maxRecDepth 100000 in after_results_simp
  simp only [Cert.LibTRefCasts.ofBuf_toBuf]
  rfl

set_option maxHeartbeats 8000000 in
/-- The middle stretch leaves the edge weights' two halves side by side. -/
theorem read1_v34 : after hostOps1 V (Proc.devRef .tc main_call0_v34) = edgePair (V (Proc.devRef .tc main_arg9)) := by
  set_option maxRecDepth 100000 in after_results_simp
  rfl

set_option maxHeartbeats 8000000 in
/-- The middle stretch leaves the second bias as a one-row array. -/
theorem read1_v35 : after hostOps1 V (Proc.devRef .tc main_call0_v35)
    = shapeCast S1x128 (V (Proc.devRef .tc main_arg8)) shapeCasts_S128_S1x128 := by
  set_option maxRecDepth 100000 in after_results_simp
  rfl

set_option maxHeartbeats 8000000 in
/-- The last stretch leaves the edge scores read off the second region's result. -/
theorem read2_v0 : after hostOps2 V (Proc.devRef .tc main_v0)
    = scores (V (Proc.devRef .tc main_call0_v36)) (V (Proc.devRef .tc main_arg1)) (V (Proc.devRef .tc main_arg2)) (V (Proc.devRef .tc main_arg10)) := by
  set_option maxRecDepth 100000 in after_results_simp
  simp only [Cert.LibTRefCasts.ofBuf_toBuf]
  rfl

end Reads

variable (m : (ℓ : Loc nD τ sig) → Buf (Elt Ideal) ℓ) (ρ : Dev nD → PrngReg) (c : Dev nD)

/-! ## After the first stretch (the first region's entry contents) -/

theorem W1_arg0 : W1 m ρ c (Proc.devRef .tc main_arg0) = m ((c.tc : Thread nD τ).loc main_arg0) := by
  keeps_host hostOps0
theorem W1_arg3 : W1 m ρ c (Proc.devRef .tc main_arg3) = m ((c.tc : Thread nD τ).loc main_arg3) := by
  keeps_host hostOps0
theorem W1_arg4 : W1 m ρ c (Proc.devRef .tc main_arg4) = m ((c.tc : Thread nD τ).loc main_arg4) := by
  keeps_host hostOps0

theorem W1_v9 : W1 m ρ c (Proc.devRef .tc main_call0_v9) = invDeg (m ((c.tc : Thread nD τ).loc main_arg2)) :=
  read0_v9 (W0 m ρ c)
theorem W1_v19 : W1 m ρ c (Proc.devRef .tc main_call0_v19)
    = agg128 (m ((c.tc : Thread nD τ).loc main_arg0)) (m ((c.tc : Thread nD τ).loc main_arg1)) (m ((c.tc : Thread nD τ).loc main_arg2)) :=
  read0_v19 (W0 m ρ c)
theorem W1_v20 : W1 m ρ c (Proc.devRef .tc main_call0_v20)
    = shapeCast S1x256 (m ((c.tc : Thread nD τ).loc main_arg5)) shapeCasts_S256_S1x256 :=
  read0_v20 (W0 m ρ c)

/-! ## At the first region's exit and after the middle stretch -/

/-- The first region's result array: what its write-backs leave. -/
abbrev H1 : S100000x256.Idx → EReal := (dat0 (F := Ideal) (V1 m ρ) c).arrAt 6 cfg0.N

theorem W2_v21 : W2 m ρ c (Proc.devRef .tc main_call0_v21) = H1 m ρ c := W2_arr m ρ c 6

theorem W2_v9 : W2 m ρ c (Proc.devRef .tc main_call0_v9) = invDeg (m ((c.tc : Thread nD τ).loc main_arg2)) :=
  ((W2_arr m ρ c 2).trans (((dat0 (V1 m ρ) c).arrAt_in 2 rfl _).trans (A_eq0 (V1 m ρ) c 2))).trans (W1_v9 m ρ c)

theorem W2_arg1 : W2 m ρ c (Proc.devRef .tc main_arg1) = m ((c.tc : Thread nD τ).loc main_arg1) :=
  (W2_of_ne m ρ c main_arg1 (by decide)).trans (by keeps_host hostOps0)
theorem W2_arg2 : W2 m ρ c (Proc.devRef .tc main_arg2) = m ((c.tc : Thread nD τ).loc main_arg2) :=
  (W2_of_ne m ρ c main_arg2 (by decide)).trans (by keeps_host hostOps0)
theorem W2_arg6 : W2 m ρ c (Proc.devRef .tc main_arg6) = m ((c.tc : Thread nD τ).loc main_arg6) :=
  (W2_of_ne m ρ c main_arg6 (by decide)).trans (by keeps_host hostOps0)
theorem W2_arg7 : W2 m ρ c (Proc.devRef .tc main_arg7) = m ((c.tc : Thread nD τ).loc main_arg7) :=
  (W2_of_ne m ρ c main_arg7 (by decide)).trans (by keeps_host hostOps0)
theorem W2_arg8 : W2 m ρ c (Proc.devRef .tc main_arg8) = m ((c.tc : Thread nD τ).loc main_arg8) :=
  (W2_of_ne m ρ c main_arg8 (by decide)).trans (by keeps_host hostOps0)
theorem W2_arg9 : W2 m ρ c (Proc.devRef .tc main_arg9) = m ((c.tc : Thread nD τ).loc main_arg9) :=
  (W2_of_ne m ρ c main_arg9 (by decide)).trans (by keeps_host hostOps0)
theorem W2_arg10 : W2 m ρ c (Proc.devRef .tc main_arg10) = m ((c.tc : Thread nD τ).loc main_arg10) :=
  (W2_of_ne m ρ c main_arg10 (by decide)).trans (by keeps_host hostOps0)

theorem W3_v21 : W3 m ρ c (Proc.devRef .tc main_call0_v21) = H1 m ρ c :=
  (show W3 m ρ c (Proc.devRef .tc main_call0_v21) = W2 m ρ c (Proc.devRef .tc main_call0_v21) by keeps_host hostOps1).trans (W2_v21 m ρ c)
theorem W3_v9 : W3 m ρ c (Proc.devRef .tc main_call0_v9) = invDeg (m ((c.tc : Thread nD τ).loc main_arg2)) :=
  (show W3 m ρ c (Proc.devRef .tc main_call0_v9) = W2 m ρ c (Proc.devRef .tc main_call0_v9) by keeps_host hostOps1).trans (W2_v9 m ρ c)
theorem W3_arg6 : W3 m ρ c (Proc.devRef .tc main_arg6) = m ((c.tc : Thread nD τ).loc main_arg6) :=
  (show W3 m ρ c (Proc.devRef .tc main_arg6) = W2 m ρ c (Proc.devRef .tc main_arg6) by keeps_host hostOps1).trans (W2_arg6 m ρ c)
theorem W3_arg7 : W3 m ρ c (Proc.devRef .tc main_arg7) = m ((c.tc : Thread nD τ).loc main_arg7) :=
  (show W3 m ρ c (Proc.devRef .tc main_arg7) = W2 m ρ c (Proc.devRef .tc main_arg7) by keeps_host hostOps1).trans (W2_arg7 m ρ c)
theorem W3_arg1 : W3 m ρ c (Proc.devRef .tc main_arg1) = m ((c.tc : Thread nD τ).loc main_arg1) :=
  (show W3 m ρ c (Proc.devRef .tc main_arg1) = W2 m ρ c (Proc.devRef .tc main_arg1) by keeps_host hostOps1).trans (W2_arg1 m ρ c)
theorem W3_arg2 : W3 m ρ c (Proc.devRef .tc main_arg2) = m ((c.tc : Thread nD τ).loc main_arg2) :=
  (show W3 m ρ c (Proc.devRef .tc main_arg2) = W2 m ρ c (Proc.devRef .tc main_arg2) by keeps_host hostOps1).trans (W2_arg2 m ρ c)
theorem W3_arg10 : W3 m ρ c (Proc.devRef .tc main_arg10) = m ((c.tc : Thread nD τ).loc main_arg10) :=
  (show W3 m ρ c (Proc.devRef .tc main_arg10) = W2 m ρ c (Proc.devRef .tc main_arg10) by keeps_host hostOps1).trans (W2_arg10 m ρ c)

theorem W3_v35 : W3 m ρ c (Proc.devRef .tc main_call0_v35)
    = shapeCast S1x128 (m ((c.tc : Thread nD τ).loc main_arg8)) shapeCasts_S128_S1x128 :=
  (read1_v35 (W2 m ρ c)).trans (by rw [W2_arg8])

theorem W3_v34 : W3 m ρ c (Proc.devRef .tc main_call0_v34) = edgePair (m ((c.tc : Thread nD τ).loc main_arg9)) :=
  (read1_v34 (W2 m ρ c)).trans (by rw [W2_arg9])

theorem W3_v31 : W3 m ρ c (Proc.devRef .tc main_call0_v31)
    = agg256 (H1 m ρ c) (m ((c.tc : Thread nD τ).loc main_arg1)) (m ((c.tc : Thread nD τ).loc main_arg2)) :=
  (read1_v31 (W2 m ρ c)).trans (by rw [W2_v21, W2_arg1, W2_arg2])

/-! ## At the second region's exit and after the last stretch -/

/-- The second region's result array (the per-node partial scores): what its write-backs leave. -/
abbrev S2 : S100000x2.Idx → EReal := (dat1 (F := Ideal) (V3 m ρ) c).arrAt 7 cfg1.N

theorem W4_v36 : W4 m ρ c (Proc.devRef .tc main_call0_v36) = S2 m ρ c := W4_arr m ρ c 7

theorem W4_arg1 : W4 m ρ c (Proc.devRef .tc main_arg1) = m ((c.tc : Thread nD τ).loc main_arg1) :=
  (W4_of_ne m ρ c main_arg1 (by decide)).trans (W3_arg1 m ρ c)
theorem W4_arg2 : W4 m ρ c (Proc.devRef .tc main_arg2) = m ((c.tc : Thread nD τ).loc main_arg2) :=
  (W4_of_ne m ρ c main_arg2 (by decide)).trans (W3_arg2 m ρ c)
theorem W4_arg10 : W4 m ρ c (Proc.devRef .tc main_arg10) = m ((c.tc : Thread nD τ).loc main_arg10) :=
  (W4_of_ne m ρ c main_arg10 (by decide)).trans (W3_arg10 m ρ c)

/-- The result array: the edge scores read off the per-node partial scores. -/
theorem W5_v0 : W5 m ρ c (Proc.devRef .tc main_v0)
    = scores (S2 m ρ c) (m ((c.tc : Thread nD τ).loc main_arg1)) (m ((c.tc : Thread nD τ).loc main_arg2)) (m ((c.tc : Thread nD τ).loc main_arg10)) :=
  (read2_v0 (W4 m ρ c)).trans (by rw [W4_v36, W4_arg1, W4_arg2, W4_arg10])

end Cert.KernelIdeal.Folds

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«131474_j31662498906598_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.KRegion0.lean ====
/-
  The first region's result, entry by entry, as one function of the arrays the region reads.

  The region walks the 100000 rows in 20 blocks of 5000 rows.  On a block it forms, over the extended reals,
  the product of the first array's rows with the first weight matrix, the product of the second array's rows — each
  row scaled by that row's factor — with the second weight matrix, adds the two and the bias row, and takes the
  maximum with zero.  Entry (p, q) of the block's result therefore reads only row p of the two row-blocked arrays and
  of the factor column, and column q of the weights and the bias; row p of block t is row 5000 t + p of the arrays.
  So every block is the restriction of ONE array-wide function, the blocks tile the array (row r lies in block
  r / 5000), and the array after the region is that function.
-/
import proofs.«131474_j31662498906598_2_alg».proof.Proof.Gen.KernelIdeal.Frame
import proofs.«131474_j31662498906598_2_alg».proof.Proof.LibPlainDotFormats
import proofs.«131474_j31662498906598_2_alg».proof.Proof.LibKeepdims
import proofs.«131474_j31662498906598_2_alg».proof.Proof.LibRowLayout

noncomputable section

namespace Cert.KernelIdeal.RegionValue

open Cert.KernelIdeal Cert.KernelIdeal.Gen Idealize.ShloMosaic Idealize.ShloMosaic.ValueIdx
open Cert.LibPlainDot

open Idealize.ShloMosaic.TcCoe Idealize.SL.Sem
open Idealize.ShloMosaic.Pipeline (Dat)

/-- The dimension numbers of the region's two products are those of a plain matrix product. -/
theorem plain0 : Plain dot_S5000x128_S128x256_S5000x256_1_0_0_1_n_n := ⟨rfl, rfl, rfl, rfl, rfl, rfl⟩

/-- The body's stored value at entry `(p, q)` of a block, over the extended reals: the two products' sums, the row
    added, and the maximum with the zero word's value. -/
theorem k0_pay1_apply (x0 x1 : Vec Ideal S5000x128 .f32) (x2 : Vec Ideal S5000x1 .f32) (x3 x4 : Vec Ideal S128x256 .f32)
    (x5 : Vec Ideal S1x256 .f32) (p : Fin 5000) (q : Fin 256) :
    k0_pay1 (F := Ideal) x0 x1 x2 x3 x4 x5 (ix2 p q)
      = max (((∑ k : Fin 128, x0 (ix2 p k) * x3 (ix2 k q))
              + (∑ k : Fin 128, (x1 (ix2 p k) * x2 (ix2 p (0 : Fin 1))) * x4 (ix2 k q)))
             + x5 (ix2 (0 : Fin 1) q))
            (Ideal.ofBits .f32 0x00000000#32) := by
  unfold k0_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact plain0.matmul_zero_apply_formats none (truncf .bf16 x0 bitsLt_bf16_f32) (truncf .bf16 x3 bitsLt_bf16_f32) p q
    · refine (plain0.matmul_zero_apply_formats none _ (truncf .bf16 x4 bitsLt_bf16_f32) p q).trans ?_
      refine Finset.sum_congr rfl fun k _ => congrArg₂ (· * ·) ?_ rfl
      refine (mulf_apply _ _ _).trans ?_
      refine congrArg₂ (· * ·) (congrFun (shapeCast_self x1 _) _) ?_
      exact (Cert.LibKeepdims.broadcastTo_a1_ab_apply _ _ p k).trans (congrFun (shapeCast_self x2 _) _)
  · exact (Cert.LibRowLayout.broadcastTo_1b_ab_apply _ _ p q).trans (congrFun (shapeCast_self x5 _) _)

variable (V : (c : Dev nD) → (b : Ref sig .tc) → Buf (Elt Ideal) ((c : Thread nD τ).loc b))

/-- The all-zero offsets of the body's whole-block accesses. -/
theorem hz : (![0, 0] : Fin 2 → Nat) = fun _ => 0 := funext fun a => by fin_cases a <;> rfl

/-- The index maps over the grid: the three row-blocked inputs and the output sit at block row `t`, the three whole
    arrays at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `5000 t …` of its array. -/
theorem blk0_0_apply (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := idx_facts0 t
  unfold iblk0
  rw [View.read_apply]
  show (V c main_arg0 : S100000x128.Idx → EReal) _ = _
  refine congrArg (V c main_arg0 : S100000x128.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Window 1's block at point `t` is rows `5000 t …` of its array. -/
theorem blk0_1_apply (c : Dev nD) (t : Fin cfg0.N) (p : Fin 5000) (k : Fin 128) (r : Fin 100000)
    (hr : r.val = t.val * 5000 + p.val) :
    (iblk0 V c 1 t : Vec Ideal S5000x128 .f32) (ix2 p k) = (V c main_call0_v19 : S100000x128.Idx → EReal) (ix2 r k) := by
  obtain ⟨-, -, e0, e1, -⟩ := idx_facts0 t
  unfold iblk0
  rw [View.read_apply]
  show (V c main_call0_v19 : S100000x128.Idx → EReal) _ = _
  refine congrArg (V c main_call0_v19 : S100000x128.Idx → EReal) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Window 2's block at point `t` is rows `5000 t …` of its one-column array. -/
theorem blk0_2_apply (c : Dev nD) (t : Fin cfg0.N) (p : Fin 5000) (r : Fin 100000)
    (hr : r.val = t.val * 5000 + p.val) :
    (iblk0 V c 2 t : Vec Ideal S5000x1 .f32) (ix2 p (0 : Fin 1)) = (V c main_call0_v9 : S100000x1.Idx → EReal) (ix2 r (0 : Fin 1)) := by
  obtain ⟨-, -, -, -, e0, e1, -⟩ := idx_facts0 t
  unfold iblk0
  rw [View.read_apply]
  show (V c main_call0_v9 : S100000x1.Idx → EReal) _ = _
  refine congrArg (V c main_call0_v9 : S100000x1.Idx → EReal) (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * (0 : Fin 1).val = (0 : Fin 1).val; rw [e1]; rfl

/-- Window 3's block at every point is its whole array. -/
theorem blk0_3_apply (c : Dev nD) (t : Fin cfg0.N) (k : Fin 128) (q : Fin 256) :
    (iblk0 V c 3 t : Vec Ideal S128x256 .f32) (ix2 k q) = (V c main_arg3 : S128x256.Idx → EReal) (ix2 k q) := by
  obtain ⟨-, -, -, -, -, -, e0, e1, -⟩ := idx_facts0 t
  unfold iblk0
  rw [View.read_apply]
  show (V c main_arg3 : S128x256.Idx → EReal) _ = _
  refine congrArg (V c main_arg3 : S128x256.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- Window 4's block at every point is its whole array. -/
theorem blk0_4_apply (c : Dev nD) (t : Fin cfg0.N) (k : Fin 128) (q : Fin 256) :
    (iblk0 V c 4 t : Vec Ideal S128x256 .f32) (ix2 k q) = (V c main_arg4 : S128x256.Idx → EReal) (ix2 k q) := by
  obtain ⟨-, -, -, -, -, -, -, -, e0, e1, -⟩ := idx_facts0 t
  unfold iblk0
  rw [View.read_apply]
  show (V c main_arg4 : S128x256.Idx → EReal) _ = _
  refine congrArg (V c main_arg4 : S128x256.Idx → EReal) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- Window 5's block at every point is its whole one-row array. -/
theorem blk0_5_apply (c : Dev nD) (t : Fin cfg0.N) (q : Fin 256) :
    (iblk0 V c 5 t : Vec Ideal S1x256 .f32) (ix2 (0 : Fin 1) q) = (V c main_call0_v20 : S1x256.Idx → EReal) (ix2 (0 : Fin 1) q) := by
  obtain ⟨-, -, -, -, -, -, -, -, -, -, e0, e1, -⟩ := idx_facts0 t
  unfold iblk0
  rw [View.read_apply]
  show (V c main_call0_v20 : S1x256.Idx → EReal) _ = _
  refine congrArg (V c main_call0_v20 : S1x256.Idx → EReal) (funext fun a => Fin.ext ?_)
  match a with
  | ⟨0, _⟩ => show win0_5.index t (0 : Fin 2) * 1 + 1 * (0 : Fin 1).val = (0 : Fin 1).val; rw [e0]; rfl
  | ⟨1, _⟩ => show win0_5.index t (1 : Fin 2) * 256 + 1 * q.val = q.val; rw [e1]; omega

/-- The region's result at row `r`, column `j`, as one function of the six arrays the region reads: the first array's row
    against the first weight, the second array's row scaled by the row's factor against the second weight, the bias row
    added, and the maximum with the zero word's value. -/
def regionVal0 (a0 a1 : S100000x128.Idx → EReal) (a2 : S100000x1.Idx → EReal) (a3 a4 : S128x256.Idx → EReal)
    (a5 : S1x256.Idx → EReal) (r : Fin 100000) (j : Fin 256) : EReal :=
  max (((∑ k : Fin 128, a0 (ix2 r k) * a3 (ix2 k j))
          + (∑ k : Fin 128, (a1 (ix2 r k) * a2 (ix2 r (0 : Fin 1))) * a4 (ix2 k j)))
         + a5 (ix2 (0 : Fin 1) j))
        (Ideal.ofBits .f32 0x00000000#32)

/-- The same as an array, at the arrays the region finds. -/
def arr0 (c : Dev nD) : S100000x256.Idx → EReal := fun i =>
  regionVal0 (V c main_arg0) (V c main_call0_v19) (V c main_call0_v9) (V c main_arg3) (V c main_arg4) (V c main_call0_v20) (i 0) (i 1)

/-- What the body leaves at point `t`, at the block's entry `z`, is the region's result at the array entry `i` that
    the block's entry sits at. -/
theorem point0 (c : Dev nD) (t : Fin cfg0.N) (z : S5000x256.Idx) (i : S100000x256.Idx)
    (h0 : (i 0).val = t.val * 5000 + (z 0).val) (h1 : (i 1).val = (z 1).val) :
    k0_pay1 (F := Ideal) (iblk0 V c 0 t) (iblk0 V c 1 t) (iblk0 V c 2 t) (iblk0 V c 3 t) (iblk0 V c 4 t) (iblk0 V c 5 t) z
      = arr0 V c i := by
  obtain ⟨p, q, rfl⟩ : ∃ (p : Fin 5000) (q : Fin 256), z = ix2 p q := ⟨z 0, z 1, eq_ix2 z⟩
  obtain ⟨r, j, rfl⟩ : ∃ (r : Fin 100000) (j : Fin 256), i = ix2 r j := ⟨i 0, i 1, eq_ix2 i⟩
  have hr : r.val = t.val * 5000 + p.val := h0
  obtain rfl : j = q := Fin.ext h1
  refine (k0_pay1_apply (iblk0 V c 0 t) (iblk0 V c 1 t) (iblk0 V c 2 t) (iblk0 V c 3 t) (iblk0 V c 4 t) (iblk0 V c 5 t) p j).trans ?_
  show _ = regionVal0 (V c main_arg0) (V c main_call0_v19) (V c main_call0_v9) (V c main_arg3) (V c main_arg4) (V c main_call0_v20) r j
  unfold regionVal0
  refine congrArg₂ (fun a b : EReal => max a b) ?_ rfl
  refine congrArg₂ (fun a b : EReal => a + b) (congrArg₂ (fun a b : EReal => a + b) ?_ ?_) (blk0_5_apply V c t j)
  · exact Finset.sum_congr rfl fun k _ => congrArg₂ (fun a b : EReal => a * b) (blk0_0_apply V c t p k r hr) (blk0_3_apply V c t k j)
  · exact Finset.sum_congr rfl fun k _ => congrArg₂ (fun a b : EReal => a * b)
      (congrArg₂ (fun a b : EReal => a * b) (blk0_1_apply V c t p k r hr) (blk0_2_apply V c t p r hr)) (blk0_4_apply V c t k j)

/-- What point `t` writes back is block `t` of the region's result array. -/
theorem flushed0_eq (c : Dev nD) (t : Fin cfg0.N) :
    (dat0 (F := Ideal) V c).flushed 6 t = ((cfg0.win 6).blk t).view.read (Elt Ideal) (arr0 V c) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S5000x1) hz,
    View.ld_unit_zero (S := S128x256) hz, View.ld_unit_zero (S := S1x256) hz]
  obtain ⟨-, -, -, -, -, -, -, -, -, -, -, -, e0, e1⟩ := idx_facts0 t
  funext y
  refine point0 V c t ((cfg0.win 6).xinj (grid0.coords t) y) (((cfg0.win 6).blk t).view.emb y) ?_ ?_
  · show win0_6.index t (0 : Fin 2) * 5000 + 1 * (y 0).val = t.val * 5000 + (y 0).val
    rw [e0]; omega
  · show win0_6.index t (1 : Fin 2) * 256 + 1 * (y 1).val = (y 1).val
    rw [e1]; omega

/-- An entry of the array is in point `t`'s block iff each coordinate is in the block's range on its axis. -/
theorem mem_blk0 (t : Fin cfg0.N) (i : S100000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_call0_v21).slice (win0_6.rect t)).set ↔ _
  rw [View.set_slice_whole, Rect.mem_set_unit]
  exact Iff.rfl

/-- Every entry of the array is in the block of the point that its row's block of 5000 names. -/
theorem cover0 (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, -, -, e0, e1⟩ := idx_facts0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 256 ≤ (i 1).val ∧ (i 1).val < win0_6.index t (1 : Fin 2) * 256 + 256
    rw [e1]; omega

/-- After the region's last point the output array holds the region's result array. -/
theorem final0 (c : Dev nD) : (dat0 (F := Ideal) V c).arrAt 6 cfg0.N = arr0 V c :=
  (dat0 (F := Ideal) V c).arrAt_eq_of_cover 6 (arr0 V c) (fun t _ => flushed0_eq V c t) cover0

/-- The region's output array after its run, entry by entry, as one function of the arrays the region finds. -/
theorem region0_entry (c : Dev nD) (r : Fin 100000) (j : Fin 256) :
    ((dat0 (F := Ideal) V c).arrAt 6 cfg0.N : S100000x256.Idx → EReal) (ix2 r j)
      = regionVal0 (V c main_arg0) (V c main_call0_v19) (V c main_call0_v9) (V c main_arg3) (V c main_arg4)
          (V c main_call0_v20) r j :=
  congrFun (final0 V c) (ix2 r j)

end Cert.KernelIdeal.RegionValue

end
-- ==== Proof.KRegion1.lean ====
/-
  The second region's result, entry by entry, as one function of the arrays the region reads.

  The region walks the 100000 rows in 25 blocks of 4000 rows.  On a block it forms, over the extended reals,
  the product of the first array's rows with the first weight matrix, the product of the second array's rows — each
  row scaled by that row's factor — with the second weight matrix, adds the two and the bias row, and multiplies the
  resulting 128-column rows by the last, two-column matrix.  Entry (p, q) of the block's result therefore reads only
  row p of the two row-blocked arrays and of the factor column, the whole weights and bias, and column q of the last
  matrix; row p of block t is row 4000 t + p of the arrays.  So every block is the restriction of ONE array-wide
  function, the blocks tile the array (row r lies in block r / 4000), and the array after the region is that function.
-/
import proofs.«131474_j31662498906598_2_alg».proof.Proof.Gen.KernelIdeal.Frame
import proofs.«131474_j31662498906598_2_alg».proof.Proof.LibPlainDotFormats
import proofs.«131474_j31662498906598_2_alg».proof.Proof.LibKeepdims
import proofs.«131474_j31662498906598_2_alg».proof.Proof.LibRowLayout

noncomputable section

namespace Cert.KernelIdeal.RegionValue

open Cert.KernelIdeal Cert.KernelIdeal.Gen Idealize.ShloMosaic Idealize.ShloMosaic.ValueIdx
open Cert.LibPlainDot

open Idealize.ShloMosaic.TcCoe Idealize.SL.Sem
open Idealize.ShloMosaic.Pipeline (Dat)

/-- The dimension numbers of the region's two inner products are those of a plain matrix product, -/
theorem plain1a : Plain dot_S4000x256_S256x128_S4000x128_1_0_0_1_n_n := ⟨rfl, rfl, rfl, rfl, rfl, rfl⟩

/-- and so are those of its outer product. -/
theorem plain1b : Plain dot_S4000x128_S128x2_S4000x2_1_0_0_1_n_n := ⟨rfl, rfl, rfl, rfl, rfl, rfl⟩

/-- The body's stored value at entry `(p, q)` of a block, over the extended reals: the outer product's sum over the
    128 hidden columns `j` of (the two inner products' sums plus the bias row, at `(p, j)`) times the last matrix at `(j, q)`. -/
theorem k1_pay1_apply (x0 x1 : Vec Ideal S4000x256 .f32) (x2 : Vec Ideal S4000x1 .f32) (x3 x4 : Vec Ideal S256x128 .f32)
    (x5 : Vec Ideal S1x128 .f32) (x6 : Vec Ideal S128x2 .f32) (p : Fin 4000) (q : Fin 2) :
    k1_pay1 (F := Ideal) x0 x1 x2 x3 x4 x5 x6 (ix2 p q)
      = ∑ j : Fin 128,
          (((∑ k : Fin 256, x0 (ix2 p k) * x3 (ix2 k j))
            + (∑ k : Fin 256, (x1 (ix2 p k) * x2 (ix2 p (0 : Fin 1))) * x4 (ix2 k j)))
           + x5 (ix2 (0 : Fin 1) j))
          * x6 (ix2 j q) := by
  unfold k1_pay1
  refine (plain1b.matmul_zero_apply_formats none _ _ p q).trans ?_
  refine Finset.sum_congr rfl fun j _ => congrArg₂ (fun a b : EReal => a * b) ?_ ?_
  · refine (truncf_apply (φ := .f32) (ψ := .bf16) _ bitsLt_bf16_f32 (ix2 p j)).trans ?_
    refine (addf_apply _ _ _).trans ?_
    refine congrArg₂ (fun a b : EReal => a + b) ?_ ?_
    · refine (addf_apply _ _ _).trans ?_
      refine congrArg₂ (fun a b : EReal => a + b) ?_ ?_
      · refine (plain1a.matmul_zero_apply_formats none _ (truncf .bf16 x3 bitsLt_bf16_f32) p j).trans ?_
        exact Finset.sum_congr rfl fun k _ => congrArg₂ (fun a b : EReal => a * b) (congrFun (shapeCast_self x0 _) _) rfl
      · refine (plain1a.matmul_zero_apply_formats none _ (truncf .bf16 x4 bitsLt_bf16_f32) p j).trans ?_
        refine Finset.sum_congr rfl fun k _ => congrArg₂ (fun a b : EReal => a * b) ?_ rfl
        refine (mulf_apply _ _ _).trans ?_
        refine congrArg₂ (fun a b : EReal => a * b) (congrFun (shapeCast_self x1 _) _) ?_
        exact (Cert.LibKeepdims.broadcastTo_a1_ab_apply _ _ p k).trans (congrFun (shapeCast_self x2 _) _)
    · exact (Cert.LibRowLayout.broadcastTo_1b_ab_apply _ _ p j).trans (congrFun (shapeCast_self x5 _) _)
  · exact congrFun (shapeCast_self x6 _) _

variable (V : (c : Dev nD) → (b : Ref sig .tc) → Buf (Elt Ideal) ((c : Thread nD τ).loc b))

/-- The all-zero offsets of the body's whole-block accesses. -/
theorem hz1 : (![0, 0] : Fin 2 → Nat) = fun _ => 0 := funext fun a => by fin_cases a <;> rfl

/-- The index maps over the grid: the three row-blocked inputs and the output sit at block row `t`, the four whole
    arrays at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Window 0's block at point `t` is rows `4000 t …` of its array. -/
theorem blk1_0_apply (c : Dev nD) (t : Fin cfg1.N) (p : Fin 4000) (k : Fin 256) (r : Fin 100000)
    (hr : r.val = t.val * 4000 + p.val) :
    (iblk1 V c 0 t : Vec Ideal S4000x256 .f32) (ix2 p k) = (V c main_call0_v21 : S100000x256.Idx → EReal) (ix2 r k) := by
  obtain ⟨e0, e1, -⟩ := idx_facts1 t
  unfold iblk1
  rw [View.read_apply]
  show (V c main_call0_v21 : S100000x256.Idx → EReal) _ = _
  refine congrArg (V c main_call0_v21 : S100000x256.Idx → EReal) (funext fun a => Fin.ext ?_)
  match a with
  | ⟨0, _⟩ => show win1_0.index t (0 : Fin 2) * 4000 + 1 * p.val = r.val; rw [e0, hr]; omega
  | ⟨1, _⟩ => show win1_0.index t (1 : Fin 2) * 256 + 1 * k.val = k.val; rw [e1]; omega

/-- Window 1's block at point `t` is rows `4000 t …` of its array. -/
theorem blk1_1_apply (c : Dev nD) (t : Fin cfg1.N) (p : Fin 4000) (k : Fin 256) (r : Fin 100000)
    (hr : r.val = t.val * 4000 + p.val) :
    (iblk1 V c 1 t : Vec Ideal S4000x256 .f32) (ix2 p k) = (V c main_call0_v31 : S100000x256.Idx → EReal) (ix2 r k) := by
  obtain ⟨-, -, e0, e1, -⟩ := idx_facts1 t
  unfold iblk1
  rw [View.read_apply]
  show (V c main_call0_v31 : S100000x256.Idx → EReal) _ = _
  refine congrArg (V c main_call0_v31 : S100000x256.Idx → EReal) (funext fun a => Fin.ext ?_)
  match a with
  | ⟨0, _⟩ => show win1_1.index t (0 : Fin 2) * 4000 + 1 * p.val = r.val; rw [e0, hr]; omega
  | ⟨1, _⟩ => show win1_1.index t (1 : Fin 2) * 256 + 1 * k.val = k.val; rw [e1]; omega

/-- Window 2's block at point `t` is rows `4000 t …` of its one-column array. -/
theorem blk1_2_apply (c : Dev nD) (t : Fin cfg1.N) (p : Fin 4000) (r : Fin 100000)
    (hr : r.val = t.val * 4000 + p.val) :
    (iblk1 V c 2 t : Vec Ideal S4000x1 .f32) (ix2 p (0 : Fin 1)) = (V c main_call0_v9 : S100000x1.Idx → EReal) (ix2 r (0 : Fin 1)) := by
  obtain ⟨-, -, -, -, e0, e1, -⟩ := idx_facts1 t
  unfold iblk1
  rw [View.read_apply]
  show (V c main_call0_v9 : S100000x1.Idx → EReal) _ = _
  refine congrArg (V c main_call0_v9 : S100000x1.Idx → EReal) (funext fun a => Fin.ext ?_)
  match a with
  | ⟨0, _⟩ => show win1_2.index t (0 : Fin 2) * 4000 + 1 * p.val = r.val; rw [e0, hr]; omega
  | ⟨1, _⟩ => show win1_2.index t (1 : Fin 2) * 1 + 1 * (0 : Fin 1).val = (0 : Fin 1).val; rw [e1]; rfl

/-- Window 3's block at every point is its whole array. -/
theorem blk1_3_apply (c : Dev nD) (t : Fin cfg1.N) (k : Fin 256) (j : Fin 128) :
    (iblk1 V c 3 t : Vec Ideal S256x128 .f32) (ix2 k j) = (V c main_arg6 : S256x128.Idx → EReal) (ix2 k j) := by
  obtain ⟨-, -, -, -, -, -, e0, e1, -⟩ := idx_facts1 t
  unfold iblk1
  rw [View.read_apply]
  show (V c main_arg6 : S256x128.Idx → EReal) _ = _
  refine congrArg (V c main_arg6 : S256x128.Idx → EReal) (funext fun a => Fin.ext ?_)
  match a with
  | ⟨0, _⟩ => show win1_3.index t (0 : Fin 2) * 256 + 1 * k.val = k.val; rw [e0]; omega
  | ⟨1, _⟩ => show win1_3.index t (1 : Fin 2) * 128 + 1 * j.val = j.val; rw [e1]; omega

/-- Window 4's block at every point is its whole array. -/
theorem blk1_4_apply (c : Dev nD) (t : Fin cfg1.N) (k : Fin 256) (j : Fin 128) :
    (iblk1 V c 4 t : Vec Ideal S256x128 .f32) (ix2 k j) = (V c main_arg7 : S256x128.Idx → EReal) (ix2 k j) := by
  obtain ⟨-, -, -, -, -, -, -, -, e0, e1, -⟩ := idx_facts1 t
  unfold iblk1
  rw [View.read_apply]
  show (V c main_arg7 : S256x128.Idx → EReal) _ = _
  refine congrArg (V c main_arg7 : S256x128.Idx → EReal) (funext fun a => Fin.ext ?_)
  match a with
  | ⟨0, _⟩ => show win1_4.index t (0 : Fin 2) * 256 + 1 * k.val = k.val; rw [e0]; omega
  | ⟨1, _⟩ => show win1_4.index t (1 : Fin 2) * 128 + 1 * j.val = j.val; rw [e1]; omega

/-- Window 5's block at every point is its whole one-row array. -/
theorem blk1_5_apply (c : Dev nD) (t : Fin cfg1.N) (j : Fin 128) :
    (iblk1 V c 5 t : Vec Ideal S1x128 .f32) (ix2 (0 : Fin 1) j) = (V c main_call0_v35 : S1x128.Idx → EReal) (ix2 (0 : Fin 1) j) := by
  obtain ⟨-, -, -, -, -, -, -, -, -, -, e0, e1, -⟩ := idx_facts1 t
  unfold iblk1
  rw [View.read_apply]
  show (V c main_call0_v35 : S1x128.Idx → EReal) _ = _
  refine congrArg (V c main_call0_v35 : S1x128.Idx → EReal) (funext fun a => Fin.ext ?_)
  match a with
  | ⟨0, _⟩ => show win1_5.index t (0 : Fin 2) * 1 + 1 * (0 : Fin 1).val = (0 : Fin 1).val; rw [e0]; rfl
  | ⟨1, _⟩ => show win1_5.index t (1 : Fin 2) * 128 + 1 * j.val = j.val; rw [e1]; omega

/-- Window 6's block at every point is its whole array. -/
theorem blk1_6_apply (c : Dev nD) (t : Fin cfg1.N) (j : Fin 128) (q : Fin 2) :
    (iblk1 V c 6 t : Vec Ideal S128x2 .f32) (ix2 j q) = (V c main_call0_v34 : S128x2.Idx → EReal) (ix2 j q) := by
  obtain ⟨-, -, -, -, -, -, -, -, -, -, -, -, e0, e1, -⟩ := idx_facts1 t
  unfold iblk1
  rw [View.read_apply]
  show (V c main_call0_v34 : S128x2.Idx → EReal) _ = _
  refine congrArg (V c main_call0_v34 : S128x2.Idx → EReal) (funext fun a => Fin.ext ?_)
  match a with
  | ⟨0, _⟩ => show win1_6.index t (0 : Fin 2) * 128 + 1 * j.val = j.val; rw [e0]; omega
  | ⟨1, _⟩ => show win1_6.index t (1 : Fin 2) * 2 + 1 * q.val = q.val; rw [e1]; omega

/-- The region's result at row `r`, column `q`, as one function of the seven arrays the region reads: over the 128
    hidden columns `j`, (the first array's row against the first weight, plus the second array's row scaled by the row's
    factor against the second weight, plus the bias row, at `j`) times the last matrix at `(j, q)`. -/
def regionVal1 (a0 a1 : S100000x256.Idx → EReal) (a2 : S100000x1.Idx → EReal) (a3 a4 : S256x128.Idx → EReal)
    (a5 : S1x128.Idx → EReal) (a6 : S128x2.Idx → EReal) (r : Fin 100000) (q : Fin 2) : EReal :=
  ∑ j : Fin 128,
    (((∑ k : Fin 256, a0 (ix2 r k) * a3 (ix2 k j))
      + (∑ k : Fin 256, (a1 (ix2 r k) * a2 (ix2 r (0 : Fin 1))) * a4 (ix2 k j)))
     + a5 (ix2 (0 : Fin 1) j))
    * a6 (ix2 j q)

/-- The same as an array, at the arrays the region finds. -/
def arr1 (c : Dev nD) : S100000x2.Idx → EReal := fun i =>
  regionVal1 (V c main_call0_v21) (V c main_call0_v31) (V c main_call0_v9) (V c main_arg6) (V c main_arg7)
    (V c main_call0_v35) (V c main_call0_v34) (i 0) (i 1)

/-- What the body leaves at point `t`, at the block's entry `z`, is the region's result at the array entry `i` that
    the block's entry sits at. -/
theorem point1 (c : Dev nD) (t : Fin cfg1.N) (z : S4000x2.Idx) (i : S100000x2.Idx)
    (h0 : (i 0).val = t.val * 4000 + (z 0).val) (h1 : (i 1).val = (z 1).val) :
    k1_pay1 (F := Ideal) (iblk1 V c 0 t) (iblk1 V c 1 t) (iblk1 V c 2 t) (iblk1 V c 3 t) (iblk1 V c 4 t) (iblk1 V c 5 t)
        (iblk1 V c 6 t) z
      = arr1 V c i := by
  obtain ⟨p, q, rfl⟩ : ∃ (p : Fin 4000) (q : Fin 2), z = ix2 p q := ⟨z 0, z 1, eq_ix2 z⟩
  obtain ⟨r, s, rfl⟩ : ∃ (r : Fin 100000) (s : Fin 2), i = ix2 r s := ⟨i 0, i 1, eq_ix2 i⟩
  have hr : r.val = t.val * 4000 + p.val := h0
  obtain rfl : s = q := Fin.ext h1
  refine (k1_pay1_apply (iblk1 V c 0 t) (iblk1 V c 1 t) (iblk1 V c 2 t) (iblk1 V c 3 t) (iblk1 V c 4 t) (iblk1 V c 5 t)
    (iblk1 V c 6 t) p s).trans ?_
  show _ = regionVal1 (V c main_call0_v21) (V c main_call0_v31) (V c main_call0_v9) (V c main_arg6) (V c main_arg7)
    (V c main_call0_v35) (V c main_call0_v34) r s
  unfold regionVal1
  refine Finset.sum_congr rfl fun j _ => congrArg₂ (fun a b : EReal => a * b) ?_ (blk1_6_apply V c t j s)
  refine congrArg₂ (fun a b : EReal => a + b) (congrArg₂ (fun a b : EReal => a + b) ?_ ?_) (blk1_5_apply V c t j)
  · exact Finset.sum_congr rfl fun k _ => congrArg₂ (fun a b : EReal => a * b) (blk1_0_apply V c t p k r hr) (blk1_3_apply V c t k j)
  · exact Finset.sum_congr rfl fun k _ => congrArg₂ (fun a b : EReal => a * b)
      (congrArg₂ (fun a b : EReal => a * b) (blk1_1_apply V c t p k r hr) (blk1_2_apply V c t p r hr)) (blk1_4_apply V c t k j)

/-- What point `t` writes back is block `t` of the region's result array. -/
theorem flushed1_eq (c : Dev nD) (t : Fin cfg1.N) :
    (dat1 (F := Ideal) V c).flushed 7 t = ((cfg1.win 7).blk t).view.read (Elt Ideal) (arr1 V c) := by
  show (cfg1.win 7).cut (grid1.coords t) ((dat1 (F := Ideal) V c).after 7 t) = _
  rw [after1_7]
  unfold out1_7
  rw [View.canon_unit_zero hz1]
  simp only [View.ld_unit_zero (S := S4000x256) hz1, View.ld_unit_zero (S := S4000x1) hz1,
    View.ld_unit_zero (S := S256x128) hz1, View.ld_unit_zero (S := S1x128) hz1, View.ld_unit_zero (S := S128x2) hz1]
  obtain ⟨-, -, -, -, -, -, -, -, -, -, -, -, -, -, e0, e1⟩ := idx_facts1 t
  funext y
  refine point1 V c t ((cfg1.win 7).xinj (grid1.coords t) y) (((cfg1.win 7).blk t).view.emb y) ?_ ?_
  · show win1_7.index t (0 : Fin 2) * 4000 + 1 * (y 0).val = t.val * 4000 + (y 0).val
    rw [e0]; omega
  · show win1_7.index t (1 : Fin 2) * 2 + 1 * (y 1).val = (y 1).val
    rw [e1]; omega

/-- An entry of the array is in point `t`'s block iff each coordinate is in the block's range on its axis. -/
theorem mem_blk1 (t : Fin cfg1.N) (i : S100000x2.Idx) :
    i ∈ ((cfg1.win 7).blk t).view.set ↔ ∀ a : Fin 2, win1_7.index t a * S4000x2.size a ≤ (i a).val
      ∧ (i a).val < win1_7.index t a * S4000x2.size a + S4000x2.size a := by
  show i ∈ ((View.whole main_call0_v36).slice (win1_7.rect t)).set ↔ _
  rw [View.set_slice_whole, Rect.mem_set_unit]
  exact Iff.rfl

/-- Every entry of the array is in the block of the point that its row's block of 4000 names. -/
theorem cover1 (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, -, -, -, -, -, -, e0, e1⟩ := idx_facts1 t
  refine ⟨t, flush1_7 t, ?_⟩
  rw [mem_blk1]
  intro a
  match a with
  | ⟨0, _⟩ =>
    show win1_7.index t (0 : Fin 2) * 4000 ≤ (i 0).val ∧ (i 0).val < win1_7.index t (0 : Fin 2) * 4000 + 4000
    rw [e0, ht]; omega
  | ⟨1, _⟩ =>
    show win1_7.index t (1 : Fin 2) * 2 ≤ (i 1).val ∧ (i 1).val < win1_7.index t (1 : Fin 2) * 2 + 2
    rw [e1]; omega

/-- After the region's last point the output array holds the region's result array. -/
theorem final1 (c : Dev nD) : (dat1 (F := Ideal) V c).arrAt 7 cfg1.N = arr1 V c :=
  (dat1 (F := Ideal) V c).arrAt_eq_of_cover 7 (arr1 V c) (fun t _ => flushed1_eq V c t) cover1

/-- The region's output array after its run, entry by entry, as one function of the arrays the region finds. -/
theorem region1_entry (c : Dev nD) (r : Fin 100000) (q : Fin 2) :
    ((dat1 (F := Ideal) V c).arrAt 7 cfg1.N : S100000x2.Idx → EReal) (ix2 r q)
      = regionVal1 (V c main_call0_v21) (V c main_call0_v31) (V c main_call0_v9) (V c main_arg6) (V c main_arg7)
          (V c main_call0_v35) (V c main_call0_v34) r q :=
  congrFun (final1 V c) (ix2 r q)

end Cert.KernelIdeal.RegionValue

end
-- ==== Proof.LibGatherRows.lean ====
/-
  A gather of whole rows (and of single entries of a vector) by a one-column list of row numbers, read at an entry.

  `x[rows]` for an operand `x : [R, C]` and `E` row numbers (an integer array of shape `[E, 1]`) takes, for each `e`,
  the row whose number the list's entry `e` names: the number is read as a signed word and CLAMPED into `[0, R - 1]`
  (a negative number reads row `0`, a number past the end reads the last row).  So entry `(e, c)` of the result is
  `x (clampRow (rows e), c)`.  The same list applied to a vector `x : [R]` gives `x (clampRow (rows e))` — with the SAME
  row, which is what lets a table and a vector gathered by one list be compared entry by entry.  Generic in `R`,
  `C`, `E`, the word width and the entry type.
-/
import Idealize.ShloMosaic.PureOps
import Idealize.ShloMosaic.Lib.ValueIdx

noncomputable section

namespace Cert.LibGatherRows

open Idealize.ShloMosaic Idealize.ShloMosaic.ValueIdx

/-- Entry `e` of a one-column list. -/
abbrev rowIdx {E : Nat} (e : Fin E) : (⟨2, ![E, 1]⟩ : Shape).Idx := ix2 e ⟨0, Nat.one_pos⟩

/-- The row a word names in a table of `R` rows: its signed value clamped into `[0, R - 1]`. -/
def clampRow (R : Nat) (hR : 0 < R) {w : Nat} (b : BitVec w) : Fin R := ⟨min b.toInt.toNat (R - 1), by omega⟩

/-- A word whose signed value is a row number names that row. -/
theorem clampRow_of_toInt {R : Nat} (hR : 0 < R) {w : Nat} (b : BitVec w) (n : Fin R) (h : b.toInt = (n.val : Int)) :
    clampRow R hR b = n := by
  refine Fin.ext ?_
  show min b.toInt.toNat (R - 1) = n.val
  have := n.isLt
  rw [h]; simp only [Int.toNat_natCast]; omega

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide

section Rows
variable {α : Type} {R C E w : Nat}
  (wf : GatherDims.WF ⟨2, ![R, C]⟩ ⟨2, ![E, 1]⟩ ⟨2, ![E, C]⟩ [1] [0] [] [0] [] 1 ![1, C])

/-- The dimension numbers of `x[rows]` for a table: result axis 1 runs over the operand's columns, the operand's row
    axis is collapsed and named by the one-entry index vector. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the clamped row the list's entry `e` names, column `c`. -/
theorem gather_rows_apply (hR : 0 < R) (x : (⟨2, ![R, C]⟩ : Shape).Idx → α) (idx : IVec ⟨2, ![E, 1]⟩ w) (e : Fin E) (c : Fin C) :
    Host.gather (rowGatherDims R C E wf) x idx (ix2 e c) = x (ix2 (clampRow R hR (idx (rowIdx e))) c) := by
  unfold Host.gather
  congr 1
  funext a
  refine Fin.ext ?_
  show (rowGatherDims R C E wf).start (ix2 e c) idx a + (rowGatherDims R C E wf).batchCoord (ix2 e c) a
    + (rowGatherDims R C E wf).offCoord (ix2 e c) a = _
  rw [GatherDims.batchCoord_eq_zero _ _ _ List.not_mem_nil]
  rcases axis_two a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C E wf).startIndexMap from List.mem_singleton.mpr rfl)]
    have hsi : (rowGatherDims R C E wf).siIdx (ix2 e c) ⟨List.idxOf (0 : Fin 2) (rowGatherDims R C E wf).startIndexMap,
        List.idxOf_lt_length_iff.2 (List.mem_singleton.mpr rfl)⟩ = rowIdx e := by
      funext b; refine Fin.ext ?_
      rcases axis_two b with rfl | rfl
      · rfl
      · rfl
    rw [hsi]
    rfl
  · have hs : (rowGatherDims R C E wf).start (ix2 e c) idx 1 = 0 := by
      unfold GatherDims.start
      rw [dif_neg (show ¬ ((1 : Fin 2) ∈ (rowGatherDims R C E wf).startIndexMap) from one_not_mem_zero)]
    rw [hs]
    simp only [Nat.add_zero, Nat.zero_add]
    unfold GatherDims.offCoord
    rw [dif_pos ((GatherDims.mem_sKept _ _).mpr ⟨one_not_mem_zero, List.not_mem_nil⟩)]
    rfl

/-- The same for the host operation as a program prints it, whose dimension numbers are these. -/
theorem host_gather_rows_apply (hR : 0 < R) (d : GatherDims ⟨2, ![R, C]⟩ ⟨2, ![E, 1]⟩ ⟨2, ![E, C]⟩)
    (hd : d = rowGatherDims R C E wf) (x : (⟨2, ![R, C]⟩ : Shape).Idx → α) (idx : IVec ⟨2, ![E, 1]⟩ w) (e : Fin E) (c : Fin C) :
    Host.gather d x idx (ix2 e c) = x (ix2 (clampRow R hR (idx (rowIdx e))) c) := by
  subst hd
  exact gather_rows_apply wf hR x idx e c

end Rows

section Vec
variable {α : Type} {R E w : Nat}
  (wf : GatherDims.WF ⟨1, ![R]⟩ ⟨2, ![E, 1]⟩ ⟨1, ![E]⟩ [] [0] [] [0] [] 1 ![1])

/-- The dimension numbers of `x[rows]` for a vector: no offset axis, the operand's one axis collapsed and named by the
    one-entry index vector. -/
abbrev vecGatherDims (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped entry the list's entry `e` names. -/
theorem gather_vec_apply (hR : 0 < R) (x : (⟨1, ![R]⟩ : Shape).Idx → α) (idx : IVec ⟨2, ![E, 1]⟩ w) (e : Fin E) :
    Host.gather (vecGatherDims R E wf) x idx (ix1 e) = x (ix1 (clampRow R hR (idx (rowIdx e)))) := by
  unfold Host.gather
  congr 1
  funext a
  obtain rfl : a = 0 := Subsingleton.elim _ _
  refine Fin.ext ?_
  show (vecGatherDims R E wf).start (ix1 e) idx 0 + (vecGatherDims R E wf).batchCoord (ix1 e) 0
    + (vecGatherDims R E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R E wf).startIndexMap from List.mem_singleton.mpr rfl)]
  have hsi : (vecGatherDims R E wf).siIdx (ix1 e) ⟨List.idxOf (0 : Fin 1) (vecGatherDims R E wf).startIndexMap,
      List.idxOf_lt_length_iff.2 (List.mem_singleton.mpr rfl)⟩ = rowIdx e := by
    funext b; refine Fin.ext ?_
    rcases axis_two b with rfl | rfl
    · rfl
    · rfl
  rw [hsi]
  rfl

/-- The same for the host operation as a program prints it, whose dimension numbers are these. -/
theorem host_gather_vec_apply (hR : 0 < R) (d : GatherDims ⟨1, ![R]⟩ ⟨2, ![E, 1]⟩ ⟨1, ![E]⟩)
    (hd : d = vecGatherDims R E wf) (x : (⟨1, ![R]⟩ : Shape).Idx → α) (idx : IVec ⟨2, ![E, 1]⟩ w) (e : Fin E) :
    Host.gather d x idx (ix1 e) = x (ix1 (clampRow R hR (idx (rowIdx e)))) := by
  subst hd
  exact gather_vec_apply wf hR x idx e

end Vec

end Cert.LibGatherRows

end
-- ==== Proof.Sage.lean ====
/-
  Shared vocabulary for the two sides of the comparison: how an edge's int32 endpoint names a node row.
  An endpoint word `b` is first wrapped (a negative word, read signed, has the node count 100000 added, as
  numpy-style indexing does) and then, read signed, clamped into the valid rows 0 … 99999 (what a row gather does
  with an out-of-range row number).
-/
import Idealize.ShloMosaic.PureOps
import Idealize.ShloMosaic.Lib.ValueIdx
import proofs.«131474_j31662498906598_2_alg».proof.Proof.LibGatherRows

noncomputable section

namespace Cert.Sage

open Idealize.ShloMosaic Idealize.ShloMosaic.ValueIdx

/-- The wrapped endpoint word: `b + 100000` when `b` is negative read signed, else `b`. -/
def wrapWord (b : BitVec 32) : BitVec 32 :=
  Scalar.select (IntOp.cmpi .slt b 0#32) (IntOp.addi b 100000#32) b

/-- The node row an endpoint word names: the wrapped word, read signed, clamped into 0 … 99999. -/
def nodeOf (b : BitVec 32) : Fin 100000 :=
  Cert.LibGatherRows.clampRow 100000 (by decide) (wrapWord b)

end Cert.Sage

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.RefEntries.lean ====
/-
  The reference network read entry by entry over the extended reals.

  Each layer of the reference is  h ↦ h · W_self + mean(h) · W_neigh + b,  where mean(h) divides the per-node sum of the
  neighbours' rows by the node's in-degree clamped below by one; the first layer is followed by a maximum with zero.
  The edge score joins the two endpoint rows of the second layer's output side by side and multiplies by one column.
  The statements below read one entry of each of these three arrays as the expected finite sums; the per-node sums
  and in-degree counts are left as the opaque stages that produce them.
-/
import proofs.«131474_j31662498906598_2_alg».proof.Proof.Gen.ReferenceIdeal.Read
import proofs.«131474_j31662498906598_2_alg».proof.Proof.Sage
import proofs.«131474_j31662498906598_2_alg».proof.Proof.LibRecipMean
import proofs.«131474_j31662498906598_2_alg».proof.Proof.LibGatherRows
import proofs.«131474_j31662498906598_2_alg».proof.Proof.LibConcatCols
import proofs.«131474_j31662498906598_2_alg».proof.Proof.LibJoinedRows

noncomputable section

open scoped BigOperators

namespace Cert.ReferenceIdeal.RefEntries

open Cert.ReferenceIdeal Cert.ReferenceIdeal.Gen Cert.ReferenceIdeal.Read Idealize.ShloMosaic Idealize.ShloMosaic.ValueIdx

/-! ## Layer one -/

/-- The mean of the neighbours' rows at one entry: the per-node sum divided by the in-degree clamped below by one. -/
theorem v18_entry (x0 : (⟨S100000x128, .f32⟩ : BufTy).Contents (Elt Ideal))
    (x1 x2 : (⟨S600000, .i32⟩ : BufTy).Contents (Elt Ideal)) (r : Fin 100000) (k : Fin 128) :
    val_main_v18 (F := Ideal) x0 x1 x2 (ix2 r k)
      = Ideal.div (val_main_v9 (F := Ideal) x0 x1 x2 (ix2 r k))
          (max (val_main_v13 (F := Ideal) x2 (ix1 r)) (Ideal.ofBits .f32 0x3F800000#32)) := by
  rw [val_main_v18_apply, val_main_v17_apply, val_main_v16_apply, val_main_v15_apply, val_main_v14_apply,
    val_main_cst_3_apply]
  have e : idx_main_v16 (idx_main_v17 (ix2 r k)) = ix1 r :=
    funext fun a => Fin.ext (by match a with | ⟨0, _⟩ => rfl)
  rw [e]
  rfl

/-- The first layer's output at one entry. -/
theorem v25_entry (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal)) (r : Fin 100000) (j : Fin 256) :
    val_main_v25 (F := Ideal) x0 x1 x2 x3 x4 x5 (ix2 r j)
      = max (((∑ k : Fin 128, x0 (ix2 r k) * x3 (ix2 k j))
              + (∑ k : Fin 128, Ideal.div (val_main_v9 (F := Ideal) x0 x1 x2 (ix2 r k))
                      (max (val_main_v13 (F := Ideal) x2 (ix1 r)) (Ideal.ofBits .f32 0x3F800000#32)) * x4 (ix2 k j)))
             + x5 (ix1 j))
            (Ideal.ofBits .f32 0x00000000#32) := by
  rw [val_main_v25_apply, val_main_v24_apply, val_main_v21_apply, val_main_v19_apply, val_main_v20_apply,
    val_main_v23_apply, val_main_v22_apply, val_main_call0_v0_apply, val_main_call0_cst_apply]
  have el : ∀ k : Fin 128, lidx_main_v19 (ix2 r j) k = ix2 r k := fun k =>
    funext fun a => Fin.ext (by match a with | ⟨0, _⟩ => rfl | ⟨1, _⟩ => rfl)
  have er : ∀ k : Fin 128, ridx_main_v19 (ix2 r j) k = ix2 k j := fun k =>
    funext fun a => Fin.ext (by match a with | ⟨0, _⟩ => rfl | ⟨1, _⟩ => rfl)
  have el' : ∀ k : Fin 128, lidx_main_v20 (ix2 r j) k = ix2 r k := fun k =>
    funext fun a => Fin.ext (by match a with | ⟨0, _⟩ => rfl | ⟨1, _⟩ => rfl)
  have er' : ∀ k : Fin 128, ridx_main_v20 (ix2 r j) k = ix2 k j := fun k =>
    funext fun a => Fin.ext (by match a with | ⟨0, _⟩ => rfl | ⟨1, _⟩ => rfl)
  have eb : idx_main_v22 (idx_main_v23 (ix2 r j)) = ix1 j :=
    funext fun a => Fin.ext (by match a with | ⟨0, _⟩ => rfl)
  simp only [el, er, el', er', eb, v18_entry]
  rfl

/-! ## Layer two -/

/-- The mean of the neighbours' first-layer rows at one entry. -/
theorem v44_entry (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal)) (r : Fin 100000) (k : Fin 256) :
    val_main_v44 (F := Ideal) x0 x1 x2 x3 x4 x5 (ix2 r k)
      = Ideal.div (val_main_v35 (F := Ideal) x0 x1 x2 x3 x4 x5 (ix2 r k))
          (max (val_main_v39 (F := Ideal) x2 (ix1 r)) (Ideal.ofBits .f32 0x3F800000#32)) := by
  rw [val_main_v44_apply, val_main_v43_apply, val_main_v42_apply, val_main_v41_apply, val_main_v40_apply,
    val_main_cst_9_apply]
  have e : idx_main_v42 (idx_main_v43 (ix2 r k)) = ix1 r :=
    funext fun a => Fin.ext (by match a with | ⟨0, _⟩ => rfl)
  rw [e]
  rfl

/-- The second layer's output at one entry. -/
theorem v50_entry (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal))
    (x6 x7 : (⟨S256x128, .f32⟩ : BufTy).Contents (Elt Ideal))
    (x8 : (⟨S128, .f32⟩ : BufTy).Contents (Elt Ideal)) (r : Fin 100000) (j : Fin 128) :
    val_main_v50 (F := Ideal) x0 x1 x2 x3 x4 x5 x6 x7 x8 (ix2 r j)
      = ((∑ k : Fin 256, val_main_v25 (F := Ideal) x0 x1 x2 x3 x4 x5 (ix2 r k) * x6 (ix2 k j))
          + (∑ k : Fin 256, Ideal.div (val_main_v35 (F := Ideal) x0 x1 x2 x3 x4 x5 (ix2 r k))
                  (max (val_main_v39 (F := Ideal) x2 (ix1 r)) (Ideal.ofBits .f32 0x3F800000#32)) * x7 (ix2 k j)))
        + x8 (ix1 j) := by
  rw [val_main_v50_apply, val_main_v47_apply, val_main_v45_apply, val_main_v46_apply, val_main_v49_apply,
    val_main_v48_apply]
  have el : ∀ k : Fin 256, lidx_main_v45 (ix2 r j) k = ix2 r k := fun k =>
    funext fun a => Fin.ext (by match a with | ⟨0, _⟩ => rfl | ⟨1, _⟩ => rfl)
  have er : ∀ k : Fin 256, ridx_main_v45 (ix2 r j) k = ix2 k j := fun k =>
    funext fun a => Fin.ext (by match a with | ⟨0, _⟩ => rfl | ⟨1, _⟩ => rfl)
  have el' : ∀ k : Fin 256, lidx_main_v46 (ix2 r j) k = ix2 r k := fun k =>
    funext fun a => Fin.ext (by match a with | ⟨0, _⟩ => rfl | ⟨1, _⟩ => rfl)
  have er' : ∀ k : Fin 256, ridx_main_v46 (ix2 r j) k = ix2 k j := fun k =>
    funext fun a => Fin.ext (by match a with | ⟨0, _⟩ => rfl | ⟨1, _⟩ => rfl)
  have eb : idx_main_v48 (idx_main_v49 (ix2 r j)) = ix1 j :=
    funext fun a => Fin.ext (by match a with | ⟨0, _⟩ => rfl)
  simp only [el, er, el', er', eb, v44_entry]
  rfl

/-! ## The edge score -/

/-- The wrapped source endpoint of an edge, as the one-column list of row numbers holds it. -/
theorem v56_entry (x1 : (⟨S600000, .i32⟩ : BufTy).Contents (Elt Ideal)) (e : Fin 600000) :
    val_main_v56 (F := Ideal) x1 (Cert.LibGatherRows.rowIdx e) = Cert.Sage.wrapWord (x1 (ix1 e)) := by
  rw [val_main_v56_apply, val_main_v55_apply, val_main_v52_apply, val_main_v54_apply, val_main_v51_apply,
    val_main_v53_apply, val_main_c_10_apply, val_main_c_11_apply]
  have h : idx_main_v56 (Cert.LibGatherRows.rowIdx e) = ix1 e :=
    funext fun a => Fin.ext (by match a with | ⟨0, _⟩ => rfl)
  rw [h]
  rfl

/-- The wrapped destination endpoint of an edge, likewise. -/
theorem v63_entry (x2 : (⟨S600000, .i32⟩ : BufTy).Contents (Elt Ideal)) (e : Fin 600000) :
    val_main_v63 (F := Ideal) x2 (Cert.LibGatherRows.rowIdx e) = Cert.Sage.wrapWord (x2 (ix1 e)) := by
  rw [val_main_v63_apply, val_main_v62_apply, val_main_v59_apply, val_main_v61_apply, val_main_v58_apply,
    val_main_v60_apply, val_main_c_12_apply, val_main_c_13_apply]
  have h : idx_main_v63 (Cert.LibGatherRows.rowIdx e) = ix1 e :=
    funext fun a => Fin.ext (by match a with | ⟨0, _⟩ => rfl)
  rw [h]
  rfl

/-- The source endpoint's second-layer row, gathered: entry (e, c) is the row the endpoint names, column c. -/
theorem v57_entry (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal))
    (x6 x7 : (⟨S256x128, .f32⟩ : BufTy).Contents (Elt Ideal))
    (x8 : (⟨S128, .f32⟩ : BufTy).Contents (Elt Ideal)) (e : Fin 600000) (c : Fin 128) :
    val_main_v57 (F := Ideal) x0 x1 x2 x3 x4 x5 x6 x7 x8 (ix2 e c)
      = val_main_v50 (F := Ideal) x0 x1 x2 x3 x4 x5 x6 x7 x8 (ix2 (Cert.Sage.nodeOf (x1 (ix1 e))) c) := by
  unfold val_main_v57
  generalize val_main_v50 (F := Ideal) x0 x1 x2 x3 x4 x5 x6 x7 x8 = y
  rw [Cert.LibGatherRows.host_gather_rows_apply
    gather_S100000x128_S600000x1_S600000x128_1_0_n_n_0_1_1128_wf (by decide : 0 < 100000)
    gather_S100000x128_S600000x1_S600000x128_1_0_n_n_0_1_1128 rfl y (val_main_v56 (F := Ideal) x1) e c,
    v56_entry]
  rfl

/-- The destination endpoint's second-layer row, gathered. -/
theorem v64_entry (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal))
    (x6 x7 : (⟨S256x128, .f32⟩ : BufTy).Contents (Elt Ideal))
    (x8 : (⟨S128, .f32⟩ : BufTy).Contents (Elt Ideal)) (e : Fin 600000) (c : Fin 128) :
    val_main_v64 (F := Ideal) x0 x1 x2 x3 x4 x5 x6 x7 x8 (ix2 e c)
      = val_main_v50 (F := Ideal) x0 x1 x2 x3 x4 x5 x6 x7 x8 (ix2 (Cert.Sage.nodeOf (x2 (ix1 e))) c) := by
  unfold val_main_v64
  generalize val_main_v50 (F := Ideal) x0 x1 x2 x3 x4 x5 x6 x7 x8 = y
  rw [Cert.LibGatherRows.host_gather_rows_apply
    gather_S100000x128_S600000x1_S600000x128_1_0_n_n_0_1_1128_wf (by decide : 0 < 100000)
    gather_S100000x128_S600000x1_S600000x128_1_0_n_n_0_1_1128 rfl y (val_main_v63 (F := Ideal) x2) e c,
    v63_entry]
  rfl

/-- The two gathered rows side by side: a column in the first half reads the source endpoint's row … -/
theorem v65_left (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal))
    (x6 x7 : (⟨S256x128, .f32⟩ : BufTy).Contents (Elt Ideal))
    (x8 : (⟨S128, .f32⟩ : BufTy).Contents (Elt Ideal)) (e : Fin 600000) (k : Fin 128) (k' : Fin 256) (hk : k'.val = k.val) :
    val_main_v65 (F := Ideal) x0 x1 x2 x3 x4 x5 x6 x7 x8 (ix2 e k')
      = val_main_v57 (F := Ideal) x0 x1 x2 x3 x4 x5 x6 x7 x8 (ix2 e k) := by
  unfold val_main_v65
  generalize val_main_v57 (F := Ideal) x0 x1 x2 x3 x4 x5 x6 x7 x8 = a
  generalize val_main_v64 (F := Ideal) x0 x1 x2 x3 x4 x5 x6 x7 x8 = b
  exact Cert.LibConcatCols.concat_cols_left a b concatenates_S600000x128_S600000x128_S600000x256_d1 e k k' hk

/-- … and a column in the second half the destination endpoint's, the column moved back by 128. -/
theorem v65_right (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal))
    (x6 x7 : (⟨S256x128, .f32⟩ : BufTy).Contents (Elt Ideal))
    (x8 : (⟨S128, .f32⟩ : BufTy).Contents (Elt Ideal)) (e : Fin 600000) (k : Fin 128) (k' : Fin 256) (hk : k'.val = 128 + k.val) :
    val_main_v65 (F := Ideal) x0 x1 x2 x3 x4 x5 x6 x7 x8 (ix2 e k')
      = val_main_v64 (F := Ideal) x0 x1 x2 x3 x4 x5 x6 x7 x8 (ix2 e k) := by
  unfold val_main_v65
  generalize val_main_v57 (F := Ideal) x0 x1 x2 x3 x4 x5 x6 x7 x8 = a
  generalize val_main_v64 (F := Ideal) x0 x1 x2 x3 x4 x5 x6 x7 x8 = b
  exact Cert.LibConcatCols.concat_cols_right a b concatenates_S600000x128_S600000x128_S600000x256_d1 e k k' hk

/-- The score of one edge. -/
theorem v69_entry (x0 : (⟨S100000x128, .f32⟩ : BufTy).Contents (Elt Ideal))
    (x1 x2 : (⟨S600000, .i32⟩ : BufTy).Contents (Elt Ideal))
    (x3 x4 : (⟨S128x256, .f32⟩ : BufTy).Contents (Elt Ideal))
    (x5 : (⟨S256, .f32⟩ : BufTy).Contents (Elt Ideal))
    (x6 x7 : (⟨S256x128, .f32⟩ : BufTy).Contents (Elt Ideal))
    (x8 : (⟨S128, .f32⟩ : BufTy).Contents (Elt Ideal))
    (x9 : (⟨S256x1, .f32⟩ : BufTy).Contents (Elt Ideal))
    (x10 : (⟨S1, .f32⟩ : BufTy).Contents (Elt Ideal)) (e : Fin 600000) :
    val_main_v69 (F := Ideal) x0 x1 x2 x3 x4 x5 x6 x7 x8 x9 x10 (ix2 e (0 : Fin 1))
      = ((∑ k : Fin 128, val_main_v50 (F := Ideal) x0 x1 x2 x3 x4 x5 x6 x7 x8 (ix2 (Cert.Sage.nodeOf (x1 (ix1 e))) k) * x9 (ix2 (⟨k.val, by omega⟩ : Fin 256) (0 : Fin 1)))
          + (∑ k : Fin 128, val_main_v50 (F := Ideal) x0 x1 x2 x3 x4 x5 x6 x7 x8 (ix2 (Cert.Sage.nodeOf (x2 (ix1 e))) k) * x9 (ix2 (⟨128 + k.val, by omega⟩ : Fin 256) (0 : Fin 1))))
        + x10 (ix1 (0 : Fin 1)) := by
  rw [val_main_v69_apply, val_main_v66_apply, val_main_v68_apply, val_main_v67_apply]
  have el : ∀ k : Fin 256, lidx_main_v66 (ix2 e (0 : Fin 1)) k = ix2 e k := fun k =>
    funext fun a => Fin.ext (by match a with | ⟨0, _⟩ => rfl | ⟨1, _⟩ => rfl)
  have er : ∀ k : Fin 256, ridx_main_v66 (ix2 e (0 : Fin 1)) k = ix2 k (0 : Fin 1) := fun k =>
    funext fun a => Fin.ext (by match a with | ⟨0, _⟩ => rfl | ⟨1, _⟩ => rfl)
  have eb : idx_main_v67 (idx_main_v68 (ix2 e (0 : Fin 1))) = ix1 (0 : Fin 1) :=
    funext fun a => Fin.ext (by match a with | ⟨0, _⟩ => rfl)
  simp only [el, er, eb]
  rw [Cert.LibJoinedRows.sum_rows_split (E1 := 128) (E2 := 128) (T := 256) rfl]
  have hl : ∀ k : Fin 128, val_main_v65 (F := Ideal) x0 x1 x2 x3 x4 x5 x6 x7 x8 (ix2 e (⟨k.val, by omega⟩ : Fin 256))
      = val_main_v50 (F := Ideal) x0 x1 x2 x3 x4 x5 x6 x7 x8 (ix2 (Cert.Sage.nodeOf (x1 (ix1 e))) k) := fun k => by
    rw [v65_left x0 x1 x2 x3 x4 x5 x6 x7 x8 e k _ rfl, v57_entry]
  have hr : ∀ k : Fin 128, val_main_v65 (F := Ideal) x0 x1 x2 x3 x4 x5 x6 x7 x8 (ix2 e (⟨128 + k.val, by omega⟩ : Fin 256))
      = val_main_v50 (F := Ideal) x0 x1 x2 x3 x4 x5 x6 x7 x8 (ix2 (Cert.Sage.nodeOf (x2 (ix1 e))) k) := fun k => by
    rw [v65_right x0 x1 x2 x3 x4 x5 x6 x7 x8 e k _ rfl, v64_entry]
  simp only [hl, hr]
  rfl

end Cert.ReferenceIdeal.RefEntries

end
-- ==== Proof.LibGatherPair.lean ====
/-
  A gather of single entries of a two-axis array by a list of (row, column) number pairs, read at an entry.

  `x[rows, cols]` for an operand `x : [R, C]` and `E` pairs of numbers (an integer array of shape `[E, 2]`, entry
  `(e, 0)` a row number and entry `(e, 1)` a column number) takes, for each `e`, the single entry of `x` the pair
  names: both operand axes are collapsed (the slice is `1 × 1`), and each number is read as a signed word and CLAMPED
  into its axis (`[0, R - 1]` for the row, `[0, C - 1]` for the column).  So entry `e` of the result is
  `x (clampRow (pairs (e, 0)), clampRow (pairs (e, 1)))`.  Generic in `R`, `C`, `E`, the word width and the entry type.
  The words `0` and `1` name column `0` and column `1` (the latter when there are at least two columns).
-/
import proofs.«131474_j31662498906598_2_alg».proof.Proof.LibGatherRows

noncomputable section

namespace Cert.LibGatherPair

open Idealize.ShloMosaic Idealize.ShloMosaic.ValueIdx Cert.LibGatherRows

theorem zero_mem_pair : (0 : Fin 2) ∈ ([0, 1] : List (Fin 2)) := by decide
theorem one_mem_pair : (1 : Fin 2) ∈ ([0, 1] : List (Fin 2)) := by decide

section Pair
variable {α : Type} {R C E w : Nat}
  (wf : GatherDims.WF ⟨2, ![R, C]⟩ ⟨2, ![E, 2]⟩ ⟨1, ![E]⟩ [] [0, 1] [] [0, 1] [] 1 ![1, 1])

/-- The dimension numbers of `x[rows, cols]` for a two-axis array: no offset axis, both operand axes collapsed, the
    two-entry index vector naming the row (component 0) and the column (component 1). -/
abbrev pairGatherDims (R C E : Nat)
    (wf : GatherDims.WF ⟨2, ![R, C]⟩ ⟨2, ![E, 2]⟩ ⟨1, ![E]⟩ [] [0, 1] [] [0, 1] [] 1 ![1, 1]) :
    GatherDims ⟨2, ![R, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- Result entry `e` reads component `0` of its index vector at `(e, 0)`. -/
theorem siIdx_zero (e : Fin E) :
    (pairGatherDims R C E wf).siIdx (ix1 e) ⟨List.idxOf (0 : Fin 2) (pairGatherDims R C E wf).startIndexMap,
      List.idxOf_lt_length_iff.2 zero_mem_pair⟩ = ix2 e (0 : Fin 2) := by
  funext b; refine Fin.ext ?_
  rcases axis_two b with rfl | rfl
  · rfl
  · rfl

/-- Result entry `e` reads component `1` of its index vector at `(e, 1)`. -/
theorem siIdx_one (e : Fin E) :
    (pairGatherDims R C E wf).siIdx (ix1 e) ⟨List.idxOf (1 : Fin 2) (pairGatherDims R C E wf).startIndexMap,
      List.idxOf_lt_length_iff.2 one_mem_pair⟩ = ix2 e (1 : Fin 2) := by
  funext b; refine Fin.ext ?_
  rcases axis_two b with rfl | rfl
  · rfl
  · rfl

/-- THE PAIR GATHER READ AT `e`: the operand at the clamped row and the clamped column the list's pair `e` names. -/
theorem gather_pair_apply (hR : 0 < R) (hC : 0 < C) (x : (⟨2, ![R, C]⟩ : Shape).Idx → α) (idx : IVec ⟨2, ![E, 2]⟩ w) (e : Fin E) :
    Host.gather (pairGatherDims R C E wf) x idx (ix1 e)
      = x (ix2 (clampRow R hR (idx (ix2 e (0 : Fin 2)))) (clampRow C hC (idx (ix2 e (1 : Fin 2))))) := by
  unfold Host.gather
  congr 1
  funext a
  refine Fin.ext ?_
  show (pairGatherDims R C E wf).start (ix1 e) idx a + (pairGatherDims R C E wf).batchCoord (ix1 e) a
    + (pairGatherDims R C E wf).offCoord (ix1 e) a = _
  rw [GatherDims.batchCoord_eq_zero _ _ _ List.not_mem_nil]
  rcases axis_two a with rfl | rfl
  · rw [GatherDims.offCoord_eq_zero _ _ _ (fun h => ((GatherDims.mem_sKept _ _).mp h).1 zero_mem_pair)]
    simp only [Nat.add_zero]
    unfold GatherDims.start
    rw [dif_pos (show (0 : Fin 2) ∈ (pairGatherDims R C E wf).startIndexMap from zero_mem_pair), siIdx_zero]
    rfl
  · rw [GatherDims.offCoord_eq_zero _ _ _ (fun h => ((GatherDims.mem_sKept _ _).mp h).1 one_mem_pair)]
    simp only [Nat.add_zero]
    unfold GatherDims.start
    rw [dif_pos (show (1 : Fin 2) ∈ (pairGatherDims R C E wf).startIndexMap from one_mem_pair), siIdx_one]
    rfl

/-- The same for the host operation as a program prints it, whose dimension numbers are these. -/
theorem host_gather_pair_apply (hR : 0 < R) (hC : 0 < C) (d : GatherDims ⟨2, ![R, C]⟩ ⟨2, ![E, 2]⟩ ⟨1, ![E]⟩)
    (hd : d = pairGatherDims R C E wf) (x : (⟨2, ![R, C]⟩ : Shape).Idx → α) (idx : IVec ⟨2, ![E, 2]⟩ w) (e : Fin E) :
    Host.gather d x idx (ix1 e)
      = x (ix2 (clampRow R hR (idx (ix2 e (0 : Fin 2)))) (clampRow C hC (idx (ix2 e (1 : Fin 2))))) := by
  subst hd
  exact gather_pair_apply wf hR hC x idx e

end Pair

/-- The word `0` names column `0`. -/
theorem clampRow_zero_word {C : Nat} (hC : 0 < C) : clampRow C hC (0#32) = ⟨0, hC⟩ := by
  refine Fin.ext ?_
  show min (0#32 : BitVec 32).toInt.toNat (C - 1) = 0
  have h : (0#32 : BitVec 32).toInt = 0 := by decide
  rw [h]
  simp

/-- The word `1` names column `1` when there are at least two columns. -/
theorem clampRow_one_word {C : Nat} (hC : 1 < C) : clampRow C (by omega) (1#32) = ⟨1, hC⟩ := by
  refine Fin.ext ?_
  show min (1#32 : BitVec 32).toInt.toNat (C - 1) = 1
  have h : (1#32 : BitVec 32).toInt = 1 := by decide
  rw [h]
  simp only [Int.toNat_one]
  omega

end Cert.LibGatherPair

end
-- ==== Proof.LibRowSlice.lean ====
/-
  A range of consecutive rows of a two-axis array, read at an entry.

  Taking `R'` consecutive rows starting at row `o` of an `[R, C]` array, with all `C` columns from column `0` — a
  unit-stride slice of a value — gives an array whose entry `(p, q)` is the original entry `(o + p, q)`.  Generic
  in the extents, the offset and the entries' type.
-/
import Idealize.ShloMosaic.Lib.Pipeline.Value
import Idealize.ShloMosaic.Lib.ValueIdx

noncomputable section

namespace Cert.LibRowSlice

open Idealize.ShloMosaic Idealize.ShloMosaic.ValueIdx

variable {α : Type}

/-- A slice of `R'` rows from row `o` (all columns) at `(p, q)` is the operand at `(o + p, q)`. -/
theorem slice_rows {R R' C : Nat} (o : Nat) (x : (⟨2, ![R, C]⟩ : Shape).Idx → α)
    (h : (⟨2, ![R, C]⟩ : Shape).Slices ![o, 0] ⟨2, ![R', C]⟩) (p : Fin R') (q : Fin C) (p' : Fin R)
    (hp : p'.val = o + p.val) :
    extractStridedSlice ⟨2, ![R', C]⟩ ![o, 0] x h (ix2 p q) = x (ix2 p' q) :=
  extractStridedSlice_apply ![o, 0] x h (ix2 p q) (ix2 p' q) fun a => by
    match a with
    | ⟨0, _⟩ => exact hp
    | ⟨1, _⟩ => show q.val = 0 + q.val; omega

/-- The same with the result's column extent named separately (`C' = C` as numbers): entry `(p, q)` is the operand
    at `(o + p, q')` for the column `q'` with the same number as `q`. -/
theorem slice_rows' {R R' C C' : Nat} (o : Nat) (x : (⟨2, ![R, C]⟩ : Shape).Idx → α)
    (h : (⟨2, ![R, C]⟩ : Shape).Slices ![o, 0] ⟨2, ![R', C']⟩) (p : Fin R') (q : Fin C') (p' : Fin R) (q' : Fin C)
    (hp : p'.val = o + p.val) (hq : q'.val = q.val) :
    extractStridedSlice ⟨2, ![R', C']⟩ ![o, 0] x h (ix2 p q) = x (ix2 p' q') :=
  extractStridedSlice_apply ![o, 0] x h (ix2 p q) (ix2 p' q') fun a => by
    match a with
    | ⟨0, _⟩ => exact hp
    | ⟨1, _⟩ => show q'.val = 0 + q.val; omega

end Cert.LibRowSlice

end
-- ==== Proof.KTail.lean ====
/-
  Two of the kernel program's host-computed arrays read entry by entry: the edge weights laid side by side, and the
  edge scores.

  The [256,1] edge weights cut in two halves of 128 rows and joined as the two columns of a [128,2] array read, at
  (j, 0), weight j and, at (j, 1), weight 128 + j.  The edge score of edge e is the per-node partial score in column 0
  at the node the edge's source names, plus the one in column 1 at the node its destination names, plus the scalar
  bias: each is a gather of a single entry by a (row, column) pair whose row number is the endpoint word wrapped by
  the node count and whose column number is the constant word 0 or 1.
-/
import proofs.«131474_j31662498906598_2_alg».proof.Proof.KTerms
import proofs.«131474_j31662498906598_2_alg».proof.Proof.Sage
import proofs.«131474_j31662498906598_2_alg».proof.Proof.LibGatherPair
import proofs.«131474_j31662498906598_2_alg».proof.Proof.LibRowSlice
import proofs.«131474_j31662498906598_2_alg».proof.Proof.LibConcatCols
import proofs.«131474_j31662498906598_2_alg».proof.Proof.LibJoinedRows
import proofs.«131474_j31662498906598_2_alg».proof.Proof.LibKeepdims
import proofs.«131474_j31662498906598_2_alg».proof.Proof.LibGatherRows

noncomputable section

namespace Cert.KernelIdeal.Tail

open Cert.KernelIdeal Cert.KernelIdeal.Gen Cert.KernelIdeal.Terms Idealize.ShloMosaic Idealize.ShloMosaic.ValueIdx

/-! ## The edge weights side by side -/

/-- Column 0 of the paired weights holds weights 0 … 127. -/
theorem edgePair_col0 (we : FVec Ideal S256x1 .f32) (j : Fin 128) :
    edgePair we (ix2 j (0 : Fin 2)) = we (ix2 (⟨j.val, by omega⟩ : Fin 256) (0 : Fin 1)) := by
  unfold edgePair
  refine (Cert.LibConcatCols.concat_cols_left (R := 128) (A := 1) (B := 1) (C := 2) _ _
    concatenates_S128x1_S128x1_S128x2_d1 j (0 : Fin 1) (0 : Fin 2) rfl).trans ?_
  exact Cert.LibRowSlice.slice_rows (R := 256) (R' := 128) (C := 1) 0 we slices_S256x1_S128x1_0_0 j (0 : Fin 1)
    (⟨j.val, by omega⟩ : Fin 256) (by show j.val = 0 + j.val; omega)

/-- Column 1 of the paired weights holds weights 128 … 255. -/
theorem edgePair_col1 (we : FVec Ideal S256x1 .f32) (j : Fin 128) :
    edgePair we (ix2 j (1 : Fin 2)) = we (ix2 (⟨128 + j.val, by omega⟩ : Fin 256) (0 : Fin 1)) := by
  unfold edgePair
  refine (Cert.LibConcatCols.concat_cols_right (R := 128) (A := 1) (B := 1) (C := 2) _ _
    concatenates_S128x1_S128x1_S128x2_d1 j (0 : Fin 1) (1 : Fin 2) rfl).trans ?_
  exact Cert.LibRowSlice.slice_rows (R := 256) (R' := 128) (C := 1) 128 we slices_S256x1_S128x1_128_0 j (0 : Fin 1)
    (⟨128 + j.val, by omega⟩ : Fin 256) rfl

/-! ## The (row, column) pairs -/

/-- The wrapped endpoint column at row `e` is the wrapped endpoint word of edge `e`. -/
theorem wrapCol_apply (i : IVec S600000 32) (e : Fin 600000) (u : Fin 1) :
    wrapCol i (ix2 e u) = Cert.Sage.wrapWord (i (ix1 e)) := by
  unfold wrapCol
  rw [Cert.LibJoinedRows.bcast_vec_col_apply]
  rfl

/-- The row number of pair `e` is the wrapped endpoint word of edge `e`. -/
theorem pairIdx_row (i : IVec S600000 32) (col : BitVec 32) (e : Fin 600000) :
    pairIdx i col (ix2 e (0 : Fin 2)) = Cert.Sage.wrapWord (i (ix1 e)) := by
  unfold pairIdx
  refine (Cert.LibConcatCols.concat_cols_left (R := 600000) (A := 1) (B := 1) (C := 2) _ _
    concatenates_S600000x1_S600000x1_S600000x2_d1 e (0 : Fin 1) (0 : Fin 2) rfl).trans ?_
  exact wrapCol_apply i e 0

/-- The column number of every pair is the constant word. -/
theorem pairIdx_col (i : IVec S600000 32) (col : BitVec 32) (e : Fin 600000) :
    pairIdx i col (ix2 e (1 : Fin 2)) = col := by
  unfold pairIdx
  refine (Cert.LibConcatCols.concat_cols_right (R := 600000) (A := 1) (B := 1) (C := 2) _ _
    concatenates_S600000x1_S600000x1_S600000x2_d1 e (0 : Fin 1) (1 : Fin 2) rfl).trans ?_
  rw [Cert.LibJoinedRows.bcast_vec_col_apply]
  rfl

/-- The program's pair gather has the dimension numbers of a gather of single entries by (row, column) pairs. -/
theorem pair_record : gather_S100000x2_S600000x2_S600000_n_01_n_n_01_1_11
    = Cert.LibGatherPair.pairGatherDims 100000 2 600000 gather_S100000x2_S600000x2_S600000_n_01_n_n_01_1_11_wf := rfl

/-- The per-node partial scores gathered by the pairs of an endpoint list and a constant column word, at edge `e`:
    the entry at the node the endpoint names and the column the word names. -/
theorem pair_gather (s : FVec Ideal S100000x2 .f32) (i : IVec S600000 32) (col : BitVec 32) (e : Fin 600000) :
    Host.gather gather_S100000x2_S600000x2_S600000_n_01_n_n_01_1_11 s (pairIdx i col) (ix1 e)
      = s (ix2 (Cert.Sage.nodeOf (i (ix1 e))) (Cert.LibGatherRows.clampRow 2 (by decide) col)) := by
  rw [Cert.LibGatherPair.host_gather_pair_apply (R := 100000) (C := 2) (E := 600000)
    gather_S100000x2_S600000x2_S600000_n_01_n_n_01_1_11_wf (by decide) (by decide) _ pair_record s (pairIdx i col) e,
    pairIdx_row, pairIdx_col]
  rfl

/-- The scalar bias read out of its one-entry array. -/
theorem bias_scalar (be : FVec Ideal S1 .f32) : shapeCast S_ be shapeCasts_S1_S_ ix0 = be (ix1 (0 : Fin 1)) :=
  shapeCast_apply be shapeCasts_S1_S_ ix0 (ix1 (0 : Fin 1)) (by
    have h1 : (S1.rowMajor (ix1 (0 : Fin 1))).val < S1.numel := (S1.rowMajor _).isLt
    have h2 : (S_.rowMajor ix0).val < S_.numel := (S_.rowMajor _).isLt
    have e1 : S1.numel = 1 := by decide
    have e2 : S_.numel = 1 := by decide
    omega)

/-! ## The edge scores -/

/-- THE SCORE OF EDGE `e`: the partial score in column 0 at the source's node plus the one in column 1 at the
    destination's node, plus the bias. -/
theorem scores_entry (s : FVec Ideal S100000x2 .f32) (src dst : IVec S600000 32) (be : FVec Ideal S1 .f32) (e : Fin 600000) :
    scores s src dst be (ix2 e (0 : Fin 1))
      = (s (ix2 (Cert.Sage.nodeOf (src (ix1 e))) (0 : Fin 2)) + s (ix2 (Cert.Sage.nodeOf (dst (ix1 e))) (1 : Fin 2)))
        + be (ix1 (0 : Fin 1)) := by
  unfold scores
  rw [Cert.LibKeepdims.shapeCast_a_a1_apply, addf_apply, addf_apply, Cert.LibJoinedRows.bcast_scalar_apply, bias_scalar,
    pair_gather, pair_gather, Cert.LibGatherPair.clampRow_zero_word, Cert.LibGatherPair.clampRow_one_word]
  rfl

end Cert.KernelIdeal.Tail

end
-- ==== Proof.LibScatterRows.lean ====
/-
  A row scatter with the accumulating body, read at an entry.

  `x.at[rows].add(updates)` takes an operand with `R` rows, a list of `E` row numbers (an integer array of shape
  `[E, 1]`, read as signed words, not clamped) and `E` update rows; update row `e` is added to the operand's row whose
  number the list's entry `e` names, and is dropped when that number is outside `[0, R)`.  So at entry `(n, c)` the
  result is the operand's entry plus the sum, over the updates `e` whose row number is `n`, of the update's entry
  `(e, c)`.  Over the extended reals the float scatter is that exact sum; over machine words the scatter is a left
  fold of additions in row-major order, which in a commutative monoid is the same sum.  The same holds for a one-axis
  operand `[R]` with scalar updates `[E]` (a count of the rows named).  A list of row numbers that is the join of
  two lists splits each such sum in two.  Generic in `R`, `C`, `E`.
-/
import Idealize.ShloMosaic.PureOps
import Idealize.ShloMosaic.PureOps.Ideal
import Idealize.ShloMosaic.Lib.ValueIdx

noncomputable section

open scoped BigOperators

namespace Cert.LibScatterRows

open Idealize.ShloMosaic Idealize.ShloMosaic.ValueIdx

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide
theorem one_mem_kept_zero : (1 : Fin 2) ∈ (List.finRange 2).filter (fun a => decide (a ∉ ([0] : List (Fin 2)))) := by decide
theorem zero_not_mem_kept_zero : (0 : Fin 2) ∉ (List.finRange 2).filter (fun a => decide (a ∉ ([0] : List (Fin 2)))) := by decide

/-- Entry `e` of an `[E, 1]` list of row numbers. -/
abbrev rowIdx {E : Nat} (e : Fin E) : (⟨2, ![E, 1]⟩ : Shape).Idx := ix2 e ⟨0, Nat.one_pos⟩

/-! ## A left fold of additions at named entries, read at one entry -/

section Fold
variable {ι κ α : Type} [AddCommMonoid α]

open Classical in
/-- Each step adds `v n` to the entry `g n` names, if any, and leaves the other entries alone (`hstep`, read at the
    entry `i'`).  At the end the entry at `i'` holds its initial value plus the sum of the `v n` over the steps that
    named `i'`. -/
theorem foldl_add_apply (step : (ι → α) → κ → ι → α) (g : κ → Option ι) (v : κ → α) (i' : ι)
    (hstep : ∀ r n, step r n i' = r i' + if g n = some i' then v n else 0) :
    ∀ (l : List κ) (x : ι → α), l.foldl step x i' = x i' + (l.map fun n => if g n = some i' then v n else 0).sum
  | [], x => by simp
  | n :: l, x => by
      rw [List.foldl_cons, foldl_add_apply step g v i' hstep l, List.map_cons, List.sum_cons, ← add_assoc, hstep]

end Fold

/-! ## The two-axis row scatter -/

section Rows
variable {R C E w : Nat}
  (wf : ScatterDims.WF ⟨2, ![R, C]⟩ ⟨2, ![E, 1]⟩ ⟨2, ![E, C]⟩ [1] [0] [0] 1)

/-- The dimension numbers of `operand.at[rows].add(updates)`: update axis 1 is the window over the operand's columns,
    the operand's row axis is the scattered one, each index vector one row number. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

theorem start_row (idx : IVec ⟨2, ![E, 1]⟩ w) (e : Fin E) (c : Fin C) :
    (rowScatterDims R C E wf).start (ix2 e c) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem start_col (idx : IVec ⟨2, ![E, 1]⟩ w) (e : Fin E) (c : Fin C) :
    (rowScatterDims R C E wf).start (ix2 e c) idx 1 = 0 := by
  unfold ScatterDims.start
  rw [dif_neg one_not_mem_zero]

theorem window_row (e : Fin E) (c : Fin C) : (rowScatterDims R C E wf).window (ix2 e c) 0 = 0 := by
  unfold ScatterDims.window
  rw [dif_neg (show 0 ∉ (rowScatterDims R C E wf).sKept from zero_not_mem_kept_zero)]

theorem window_col (e : Fin E) (c : Fin C) : (rowScatterDims R C E wf).window (ix2 e c) 1 = c.val := by
  unfold ScatterDims.window
  rw [dif_pos (show 1 ∈ (rowScatterDims R C E wf).sKept from one_mem_kept_zero)]
  rfl

/-- WHERE AN UPDATE LANDS: update `(e, c)` lands on `(n, c')` exactly when `c' = c` and the list's number `e`, read
    signed, is `n`. -/
theorem lands_iff (idx : IVec ⟨2, ![E, 1]⟩ w) (e : Fin E) (c c' : Fin C) (n : Fin R) :
    (rowScatterDims R C E wf).resultIdx? (ix2 e c) idx = some (ix2 n c')
      ↔ c' = c ∧ (idx (rowIdx e)).toInt = (n.val : Int) := by
  have e0 : (rowScatterDims R C E wf).start (ix2 e c) idx 0 + ((rowScatterDims R C E wf).window (ix2 e c) 0 : Nat)
      = (idx (rowIdx e)).toInt := by
    rw [start_row, window_row]; omega
  have e1 : (rowScatterDims R C E wf).start (ix2 e c) idx 1 + ((rowScatterDims R C E wf).window (ix2 e c) 1 : Nat)
      = (c.val : Int) := by
    rw [start_col, window_col]; omega
  have hn : n.val < R := n.isLt
  have hc : c.val < C := c.isLt
  unfold ScatterDims.resultIdx?
  split
  · rename_i h
    constructor
    · intro hEq
      have hEq' := Option.some.inj hEq
      have h0v : ((rowScatterDims R C E wf).start (ix2 e c) idx 0
          + ((rowScatterDims R C E wf).window (ix2 e c) 0 : Nat)).toNat = n.val := congrArg (fun i => (i 0).val) hEq'
      have h1v : ((rowScatterDims R C E wf).start (ix2 e c) idx 1
          + ((rowScatterDims R C E wf).window (ix2 e c) 1 : Nat)).toNat = c'.val := congrArg (fun i => (i 1).val) hEq'
      have h0 := h 0
      rw [e0] at h0v h0
      rw [e1] at h1v
      exact ⟨Fin.ext (by omega), by omega⟩
    · rintro ⟨rfl, hz⟩
      refine congrArg some (funext fun a => Fin.ext ?_)
      rcases axis_two a with rfl | rfl
      · show ((rowScatterDims R C E wf).start (ix2 e c') idx 0
          + ((rowScatterDims R C E wf).window (ix2 e c') 0 : Nat)).toNat = n.val
        rw [e0]; omega
      · show ((rowScatterDims R C E wf).start (ix2 e c') idx 1
          + ((rowScatterDims R C E wf).window (ix2 e c') 1 : Nat)).toNat = c'.val
        rw [e1]; omega
  · rename_i h
    constructor
    · intro hEq; exact nomatch hEq
    · rintro ⟨rfl, hz⟩
      refine absurd (fun a => ?_) h
      rcases axis_two a with rfl | rfl
      · rw [e0]
        exact ⟨by omega, by show (idx (rowIdx e)).toInt < ((R : Nat) : Int); omega⟩
      · rw [e1]
        exact ⟨by omega, by show (c'.val : Int) < ((C : Nat) : Int); omega⟩

/-- THE ACCUMULATING SCATTER OVER THE EXTENDED REALS READ AT `(n, c)`: the operand's entry plus the sum over the
    updates `e` whose row number is `n` of the update's entry `(e, c)`. -/
theorem scatterAdd_rows_apply (x : (⟨2, ![R, C]⟩ : Shape).Idx → EReal) (idx : IVec ⟨2, ![E, 1]⟩ w)
    (upd : (⟨2, ![E, C]⟩ : Shape).Idx → EReal) (n : Fin R) (c : Fin C) :
    Ideal.hostScatterAdd (rowScatterDims R C E wf) x idx upd (ix2 n c)
      = x (ix2 n c) + ∑ e : Fin E, if (idx (rowIdx e)).toInt = (n.val : Int) then upd (ix2 e c) else 0 := by
  unfold Ideal.hostScatterAdd
  congr 1
  rw [Finset.sum_filter, sum_idx2]
  refine Finset.sum_congr rfl fun e _ => ?_
  simp only [lands_iff wf idx e _ c n]
  by_cases h : (idx (rowIdx e)).toInt = (n.val : Int)
  · simp only [h, and_true]
    rw [Finset.sum_ite_eq Finset.univ c fun b => upd (ix2 e b)]
    simp
  · simp [h]

/-- The same for the host operation as a program prints it, whose dimension numbers are these. -/
theorem host_scatterAdd_rows_apply (d : ScatterDims ⟨2, ![R, C]⟩ ⟨2, ![E, 1]⟩ ⟨2, ![E, C]⟩) (hd : d = rowScatterDims R C E wf)
    (x : FVec Ideal ⟨2, ![R, C]⟩ .f32) (idx : IVec ⟨2, ![E, 1]⟩ w) (upd : FVec Ideal ⟨2, ![E, C]⟩ .f32) (n : Fin R) (c : Fin C) :
    Host.scatterAdd d x idx upd (ix2 n c)
      = x (ix2 n c) + ∑ e : Fin E, if (idx (rowIdx e)).toInt = (n.val : Int) then upd (ix2 e c) else 0 := by
  subst hd
  exact scatterAdd_rows_apply wf x idx upd n c

end Rows

/-! ## The one-axis scatter of scalar updates, with a machine-word sum as its body -/

section Count
variable {R E w : Nat}
  (wf : ScatterDims.WF ⟨1, ![R]⟩ ⟨2, ![E, 1]⟩ ⟨1, ![E]⟩ [] [0] [0] 1)

/-- The dimension numbers of `operand.at[rows].add(updates)` for a one-axis operand and scalar updates. -/
abbrev vecScatterDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

theorem zero_not_mem_kept_zero1 : (0 : Fin 1) ∉ (List.finRange 1).filter (fun a => decide (a ∉ ([0] : List (Fin 1)))) := by decide

theorem vec_start (idx : IVec ⟨2, ![E, 1]⟩ w) (e : Fin E) :
    (vecScatterDims R E wf).start (ix1 e) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem vec_window (e : Fin E) : (vecScatterDims R E wf).window (ix1 e) 0 = 0 := by
  unfold ScatterDims.window
  rw [dif_neg (show 0 ∉ (vecScatterDims R E wf).sKept from zero_not_mem_kept_zero1)]

/-- Update `e` lands on entry `n` exactly when the list's number `e`, read signed, is `n`. -/
theorem vec_lands_iff (idx : IVec ⟨2, ![E, 1]⟩ w) (e : Fin E) (n : Fin R) :
    (vecScatterDims R E wf).resultIdx? (ix1 e) idx = some (ix1 n) ↔ (idx (rowIdx e)).toInt = (n.val : Int) := by
  have e0 : (vecScatterDims R E wf).start (ix1 e) idx 0 + ((vecScatterDims R E wf).window (ix1 e) 0 : Nat)
      = (idx (rowIdx e)).toInt := by
    rw [vec_start, vec_window]; omega
  have hn : n.val < R := n.isLt
  have ax : ∀ a : Fin 1, a = 0 := fun a => Subsingleton.elim _ _
  unfold ScatterDims.resultIdx?
  split
  · rename_i h
    constructor
    · intro hEq
      have hEq' := Option.some.inj hEq
      have h0v : ((vecScatterDims R E wf).start (ix1 e) idx 0
          + ((vecScatterDims R E wf).window (ix1 e) 0 : Nat)).toNat = n.val := congrArg (fun i => (i 0).val) hEq'
      have h0 := h 0
      rw [e0] at h0v h0
      omega
    · intro hz
      refine congrArg some (funext fun a => Fin.ext ?_)
      obtain rfl := ax a
      show ((vecScatterDims R E wf).start (ix1 e) idx 0
          + ((vecScatterDims R E wf).window (ix1 e) 0 : Nat)).toNat = n.val
      rw [e0]; omega
  · rename_i h
    constructor
    · intro hEq; exact nomatch hEq
    · intro hz
      refine absurd (fun a => ?_) h
      obtain rfl := ax a
      rw [e0]
      exact ⟨by omega, by show (idx (rowIdx e)).toInt < ((R : Nat) : Int); omega⟩

/-- A one-axis index set is its coordinate's range. -/
def idxEquiv1 {n : Nat} : (⟨1, ![n]⟩ : Shape).Idx ≃ Fin n where
  toFun i := i 0
  invFun e := ix1 e
  left_inv i := (eq_ix1 i).symm
  right_inv _ := rfl

/-- THE SCATTER WITH A COMMUTATIVE SUM AS ITS BODY READ AT `n`: the operand's entry plus the sum of the updates whose
    row number is `n` (the fold's order does not matter in a commutative monoid). -/
theorem scatter_add_vec_apply {α : Type} [AddCommMonoid α] (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter (vecScatterDims R E wf) f x idx upd (ix1 n)
      = x (ix1 n) + ∑ e : Fin E, if (idx (rowIdx e)).toInt = (n.val : Int) then upd (ix1 e) else 0 := by
  unfold Host.scatter
  refine (foldl_add_apply _ (fun k => (vecScatterDims R E wf).resultIdx? ((⟨1, ![E]⟩ : Shape).rowMajor.symm k) idx)
    (fun k => upd ((⟨1, ![E]⟩ : Shape).rowMajor.symm k)) (ix1 n) ?_ (List.finRange (⟨1, ![E]⟩ : Shape).numel) x).trans ?_
  · intro r k
    cases h : (vecScatterDims R E wf).resultIdx? ((⟨1, ![E]⟩ : Shape).rowMajor.symm k) idx with
    | none => simp
    | some i =>
      by_cases hi : ix1 n = i
      · subst hi; simp [hf]
      · have h' : ¬ (some i = some (ix1 n)) := fun e => hi (Option.some.inj e).symm
        simp [hi, h']
  · congr 1
    rw [← Fin.sum_univ_def]
    refine Fintype.sum_equiv ((⟨1, ![E]⟩ : Shape).rowMajor.symm.trans idxEquiv1) _ _ fun k => ?_
    rw [Equiv.trans_apply]
    generalize (⟨1, ![E]⟩ : Shape).rowMajor.symm k = j
    obtain ⟨e, rfl⟩ : ∃ e : Fin E, j = ix1 e := ⟨j 0, eq_ix1 j⟩
    show _ = if (idx (rowIdx e)).toInt = (n.val : Int) then upd (ix1 e) else 0
    by_cases h : (idx (rowIdx e)).toInt = (n.val : Int)
    · rw [if_pos ((vec_lands_iff wf idx e n).mpr h), if_pos h]
    · rw [if_neg (mt (vec_lands_iff wf idx e n).mp h), if_neg h]

/-- The same with the dimension numbers as a program prints them. -/
theorem host_scatter_add_vec_apply {α : Type} [AddCommMonoid α] (d : ScatterDims ⟨1, ![R]⟩ ⟨2, ![E, 1]⟩ ⟨1, ![E]⟩)
    (hd : d = vecScatterDims R E wf) (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter d f x idx upd (ix1 n)
      = x (ix1 n) + ∑ e : Fin E, if (idx (rowIdx e)).toInt = (n.val : Int) then upd (ix1 e) else 0 := by
  subst hd
  exact scatter_add_vec_apply wf f hf x idx upd n

end Count

end Cert.LibScatterRows

end
-- ==== Proof.LibScatterCount.lean ====
/-
  The accumulating scatter into a VECTOR over the extended reals, read at an entry.

  `x.at[rows].add(updates)` for a one-axis operand `x : [R]`, `E` row numbers (an integer array `[E, 1]`, read as signed
  words, not clamped) and `E` scalar updates: entry `n` of the result is `x n` plus the sum of the updates whose row
  number is `n`; an update whose number is outside `[0, R)` is dropped.  With every update equal to one this counts
  the occurrences of `n` in the list.  Generic in `R`, `E` and the word width.
-/
import proofs.«131474_j31662498906598_2_alg».proof.Proof.LibScatterRows

noncomputable section

open scoped BigOperators

namespace Cert.LibScatterCount

open Idealize.ShloMosaic Idealize.ShloMosaic.ValueIdx Cert.LibScatterRows

variable {R E w : Nat}
  (wf : ScatterDims.WF ⟨1, ![R]⟩ ⟨2, ![E, 1]⟩ ⟨1, ![E]⟩ [] [0] [0] 1)

/-- THE ACCUMULATING VECTOR SCATTER OVER THE EXTENDED REALS READ AT `n`: the operand's entry plus the sum of the
    updates whose row number is `n`. -/
theorem scatterAdd_vec_apply (x : (⟨1, ![R]⟩ : Shape).Idx → EReal) (idx : IVec ⟨2, ![E, 1]⟩ w)
    (upd : (⟨1, ![E]⟩ : Shape).Idx → EReal) (n : Fin R) :
    Ideal.hostScatterAdd (vecScatterDims R E wf) x idx upd (ix1 n)
      = x (ix1 n) + ∑ e : Fin E, if (idx (rowIdx e)).toInt = (n.val : Int) then upd (ix1 e) else 0 := by
  unfold Ideal.hostScatterAdd
  congr 1
  rw [Finset.sum_filter]
  refine Fintype.sum_equiv idxEquiv1 _ _ fun j => ?_
  obtain ⟨e, rfl⟩ : ∃ e : Fin E, j = ix1 e := ⟨j 0, eq_ix1 j⟩
  show (if (vecScatterDims R E wf).resultIdx? (ix1 e) idx = some (ix1 n) then upd (ix1 e) else 0)
    = if (idx (rowIdx e)).toInt = (n.val : Int) then upd (ix1 e) else 0
  by_cases h : (idx (rowIdx e)).toInt = (n.val : Int)
  · rw [if_pos ((vec_lands_iff wf idx e n).mpr h), if_pos h]
  · rw [if_neg (mt (vec_lands_iff wf idx e n).mp h), if_neg h]

/-- The same for the host operation as a program prints it, whose dimension numbers are these. -/
theorem host_scatterAdd_vec_apply (d : ScatterDims ⟨1, ![R]⟩ ⟨2, ![E, 1]⟩ ⟨1, ![E]⟩) (hd : d = vecScatterDims R E wf)
    (x : FVec Ideal ⟨1, ![R]⟩ .f32) (idx : IVec ⟨2, ![E, 1]⟩ w) (upd : FVec Ideal ⟨1, ![E]⟩ .f32) (n : Fin R) :
    Host.scatterAdd d x idx upd (ix1 n)
      = x (ix1 n) + ∑ e : Fin E, if (idx (rowIdx e)).toInt = (n.val : Int) then upd (ix1 e) else 0 := by
  subst hd
  exact scatterAdd_vec_apply wf x idx upd n

end Cert.LibScatterCount

end
-- ==== Proof.LibCountWord.lean ====
/-
  Counting the entries of a list of row numbers that name a given row, two ways.

  For each row `n < R`, the entries `e < E` of an index list whose word, read signed, equals `n` can be counted by
  a scatter of the word `1` into zero words with word addition as its body, followed by the signed conversion of
  the resulting word to a float; or by the accumulating float scatter of `1.0` into `0.0`.  Word addition wraps
  modulo `2 ^ 32`, but a sum of at most `E` ones with `E < 2 ^ 31` is a natural number below `2 ^ 31`, whose
  word read signed is the number itself; so both give the same extended real, the number of such entries.
  Generic in `R` and `E`.
-/
import Mathlib.Data.BitVec
import proofs.«131474_j31662498906598_2_alg».proof.Proof.LibScatterRows
import proofs.«131474_j31662498906598_2_alg».proof.Proof.LibScatterCount

noncomputable section

open scoped BigOperators

namespace Cert.LibCountWord

open Idealize.ShloMosaic Idealize.ShloMosaic.ValueIdx Cert.LibScatterRows

/-- A sum of the words `1` (where `P` holds) and `0` (elsewhere) is the number of places where `P` holds, as a
    word (that is, modulo `2 ^ 32`). -/
theorem sum_ite_one_word {ι : Type} (s : Finset ι) (P : ι → Prop) [DecidablePred P] :
    (∑ e ∈ s, if P e then (1#32 : BitVec 32) else 0#32) = BitVec.ofNat 32 (s.filter P).card := by
  have h : (∑ e ∈ s, if P e then (1 : BitVec 32) else 0) = (((s.filter P).card : Nat) : BitVec 32) := Finset.sum_boole P s
  rw [BitVec.natCast_eq_ofNat] at h
  exact h

/-- A natural number below `2 ^ 31`, stored in a 32-bit word and read back signed, is itself. -/
theorem toInt_ofNat_small (k : Nat) (hk : k < 2 ^ 31) : (BitVec.ofNat 32 k).toInt = (k : Int) := by
  rw [BitVec.toInt_eq_toNat_cond, BitVec.toNat_ofNat]
  have h32 : (2 : Nat) ^ 32 = 4294967296 := by norm_num
  have h31 : (2 : Nat) ^ 31 = 2147483648 := by norm_num
  rw [h32]
  rw [h31] at hk
  have hm : k % 4294967296 = k := Nat.mod_eq_of_lt (by omega)
  rw [hm, if_pos (by omega)]

/-- A sum of the extended reals `1` (where `P` holds) and `0` (elsewhere) is the number of places where `P` holds. -/
theorem sum_ite_one_ereal {ι : Type} (s : Finset ι) (P : ι → Prop) [DecidablePred P] :
    (∑ e ∈ s, if P e then (1 : EReal) else 0) = (((s.filter P).card : Int) : ℝ) := by
  rw [Finset.sum_boole, Int.cast_natCast, EReal.coe_natCast]

variable {R E : Nat} {wf : ScatterDims.WF ⟨1, ![R]⟩ ⟨2, ![E, 1]⟩ ⟨1, ![E]⟩ [] [0] [0] 1}

/-- THE TWO COUNTS AGREE: the word count of the entries naming row `n` (a scatter of word ones into word zeros with
    word addition), converted signed to a float, is the float count of the same entries (the accumulating float
    scatter of ones into zeros), when the list has fewer than `2 ^ 31` entries. -/
theorem count_word_eq (hE : E < 2 ^ 31) (d : ScatterDims ⟨1, ![R]⟩ ⟨2, ![E, 1]⟩ ⟨1, ![E]⟩) (hd : d = vecScatterDims R E wf)
    (idx : IVec ⟨2, ![E, 1]⟩ 32)
    (z : IVec ⟨1, ![R]⟩ 32) (hz : ∀ i, z i = 0#32) (u : IVec ⟨1, ![E]⟩ 32) (hu : ∀ i, u i = 1#32)
    (zf : FVec Ideal ⟨1, ![R]⟩ .f32) (hzf : ∀ i, zf i = 0) (uf : FVec Ideal ⟨1, ![E]⟩ .f32) (huf : ∀ i, uf i = 1) (n : Fin R) :
    FloatOps.sitofp (F := Ideal) .f32 (Host.scatter d IntOp.addi z idx u (ix1 n)) = Host.scatterAdd d zf idx uf (ix1 n) := by
  rw [host_scatter_add_vec_apply wf d hd IntOp.addi (fun _ _ => rfl) z idx u n,
    Cert.LibScatterCount.host_scatterAdd_vec_apply wf d hd zf idx uf n, hz, hzf]
  simp only [hu, huf]
  show (((0#32 + ∑ e : Fin E, if (idx (rowIdx e)).toInt = (n.val : Int) then (1#32 : BitVec 32) else 0#32).toInt : ℝ) : EReal)
    = 0 + ∑ e : Fin E, if (idx (rowIdx e)).toInt = (n.val : Int) then (1 : EReal) else 0
  rw [sum_ite_one_word, sum_ite_one_ereal, BitVec.zero_add, zero_add, toInt_ofNat_small]
  exact lt_of_le_of_lt ((Finset.card_filter_le _ _).trans (by simp)) hE

end Cert.LibCountWord

end
-- ==== Proof.Bridge.lean ====
/-
  The bridge between the two programs' values over the extended reals.

  Both programs gather feature rows at the wrapped source endpoints and sum them into the destination rows, and both
  count the in-degree of every node; the kernel program counts in 32-bit words and multiplies by the reciprocal of the
  clamped count where the reference counts in floats and divides.  The statements here identify the kernel program's
  arrays (written as terms of the arrays they read) with the reference's stages, entry by entry where needed:
  the neighbour sums are the same operations on the same arrays; the word count read signed is the float count
  because 600000 edges are fewer than 2^31; and a product with the reciprocal of a divisor that is at least one is
  the quotient.
-/
import proofs.«131474_j31662498906598_2_alg».proof.Proof.RefEntries
import proofs.«131474_j31662498906598_2_alg».proof.Proof.KTerms
import proofs.«131474_j31662498906598_2_alg».proof.Proof.KTail
import proofs.«131474_j31662498906598_2_alg».proof.Proof.LibCountWord
import proofs.«131474_j31662498906598_2_alg».proof.Proof.LibRecipMean
import proofs.«131474_j31662498906598_2_alg».proof.Proof.LibKeepdims
import proofs.«131474_j31662498906598_2_alg».proof.Proof.LibRowLayout
import proofs.«131474_j31662498906598_2_alg».proof.Proof.LibJoinedRows

noncomputable section

open scoped BigOperators

namespace Cert.Bridge

open Cert.ReferenceIdeal Cert.ReferenceIdeal.Gen Cert.ReferenceIdeal.Read Idealize.ShloMosaic Idealize.ShloMosaic.ValueIdx

/-! ## The same records, printed in the two programs' namespaces -/

theorem scatter128_eq : Cert.KernelIdeal.scatter_S100000x128_S600000x1_S600000x128_1_0_0_1
    = scatter_S100000x128_S600000x1_S600000x128_1_0_0_1 := rfl

theorem gather128_eq : Cert.KernelIdeal.gather_S100000x128_S600000x1_S600000x128_1_0_n_n_0_1_1128
    = gather_S100000x128_S600000x1_S600000x128_1_0_n_n_0_1_1128 := rfl

theorem scatter256_eq : Cert.KernelIdeal.scatter_S100000x256_S600000x1_S600000x256_1_0_0_1
    = scatter_S100000x256_S600000x1_S600000x256_1_0_0_1 := rfl

theorem gather256_eq : Cert.KernelIdeal.gather_S100000x256_S600000x1_S600000x256_1_0_n_n_0_1_1256
    = gather_S100000x256_S600000x1_S600000x256_1_0_n_n_0_1_1256 := rfl

theorem scatterVec_eq : Cert.KernelIdeal.scatter_S100000_S600000x1_S600000_n_0_0_1
    = scatter_S100000_S600000x1_S600000_n_0_0_1 := rfl

/-! ## The endpoint columns -/

/-- The destination list as a column of row numbers is the reference's, at each of its three uses. -/
theorem plainCol_eq_v8 (x2 : (⟨S600000, .i32⟩ : BufTy).Contents (Elt Ideal)) : Cert.KernelIdeal.Terms.plainCol x2 = val_main_v8 (F := Ideal) x2 := rfl
theorem plainCol_eq_v12 (x2 : (⟨S600000, .i32⟩ : BufTy).Contents (Elt Ideal)) : Cert.KernelIdeal.Terms.plainCol x2 = val_main_v12 (F := Ideal) x2 := rfl
theorem plainCol_eq_v34 (x2 : (⟨S600000, .i32⟩ : BufTy).Contents (Elt Ideal)) : Cert.KernelIdeal.Terms.plainCol x2 = val_main_v34 (F := Ideal) x2 := rfl

/-- The wrapped source list as a column of row numbers is the reference's, at each layer. -/
theorem wrapCol_eq_v5 (x1 : (⟨S600000, .i32⟩ : BufTy).Contents (Elt Ideal)) : Cert.KernelIdeal.Terms.wrapCol x1 = val_main_v5 (F := Ideal) x1 := by
  unfold Cert.KernelIdeal.Terms.wrapCol val_main_v5 val_main_v4 val_main_v3 val_main_v2 val_main_v1 val_main_v0
    val_main_c val_main_c_0
  rfl
theorem wrapCol_eq_v31 (x1 : (⟨S600000, .i32⟩ : BufTy).Contents (Elt Ideal)) : Cert.KernelIdeal.Terms.wrapCol x1 = val_main_v31 (F := Ideal) x1 := by
  unfold Cert.KernelIdeal.Terms.wrapCol val_main_v31 val_main_v30 val_main_v29 val_main_v28 val_main_v27 val_main_v26
    val_main_c_4 val_main_c_5
  rfl

/-! ## The neighbour sums -/

/-- (B1) The first layer's neighbour sums are the same operations on the same arrays. -/
theorem agg128_eq (x0 : (⟨S100000x128, .f32⟩ : BufTy).Contents (Elt Ideal)) (x1 x2 : (⟨S600000, .i32⟩ : BufTy).Contents (Elt Ideal)) :
    Cert.KernelIdeal.Terms.agg128 x0 x1 x2 = val_main_v9 (F := Ideal) x0 x1 x2 := by
  unfold Cert.KernelIdeal.Terms.agg128 val_main_v9 val_main_v6 val_main_v7 val_main_cst
  rw [scatter128_eq, gather128_eq, plainCol_eq_v8, wrapCol_eq_v5]

/-- (B2) So are the second layer's, of the first layer's output. -/
theorem agg256_eq (x0 : (⟨S100000x128, .f32⟩ : BufTy).Contents (Elt Ideal)) (x1 x2 : (⟨S600000, .i32⟩ : BufTy).Contents (Elt Ideal)) (x3 x4 : (⟨S128x256, .f32⟩ : BufTy).Contents (Elt Ideal)) (x5 : (⟨S256, .f32⟩ : BufTy).Contents (Elt Ideal))
    (h : FVec Ideal S100000x256 .f32) (hh : h = val_main_v25 (F := Ideal) x0 x1 x2 x3 x4 x5) :
    Cert.KernelIdeal.Terms.agg256 h x1 x2 = val_main_v35 (F := Ideal) x0 x1 x2 x3 x4 x5 := by
  subst hh
  unfold Cert.KernelIdeal.Terms.agg256 val_main_v35 val_main_v32 val_main_v33 val_main_cst_6
  generalize val_main_v25 (F := Ideal) x0 x1 x2 x3 x4 x5 = y
  rw [scatter256_eq, gather256_eq, plainCol_eq_v34, wrapCol_eq_v31]

/-! ## The in-degree -/

/-- (B3) The second layer counts the in-degrees again, by the same operations. -/
theorem v39_eq_v13 (x2 : (⟨S600000, .i32⟩ : BufTy).Contents (Elt Ideal)) : val_main_v39 (F := Ideal) x2 = val_main_v13 (F := Ideal) x2 := by
  unfold val_main_v39 val_main_v13 val_main_v38 val_main_v12 val_main_v37 val_main_v11 val_main_v36 val_main_v10
    val_main_cst_8 val_main_cst_2 val_main_cst_7 val_main_cst_1
  rfl

/-- The in-degree counted in words and read signed is the in-degree counted in floats. -/
theorem degWord_float (x2 : (⟨S600000, .i32⟩ : BufTy).Contents (Elt Ideal)) (r : Fin 100000) :
    FloatOps.sitofp (F := Ideal) .f32 (Cert.KernelIdeal.Terms.degWord x2 (ix1 r)) = val_main_v13 (F := Ideal) x2 (ix1 r) := by
  unfold Cert.KernelIdeal.Terms.degWord val_main_v13
  rw [scatterVec_eq, plainCol_eq_v12]
  exact Cert.LibCountWord.count_word_eq (wf := scatter_S100000_S600000x1_S600000_n_0_0_1_wf) (by norm_num)
    scatter_S100000_S600000x1_S600000_n_0_0_1 rfl (val_main_v12 (F := Ideal) x2)
    _ (fun i => Cert.LibJoinedRows.bcast_scalar_apply _ _ i)
    _ (fun i => Cert.LibJoinedRows.bcast_scalar_apply _ _ i)
    (val_main_v11 (F := Ideal))
    (fun i => by rw [val_main_v11_apply, val_main_cst_2_apply]; exact Ideal.ofBits_zero_f32)
    (val_main_v10 (F := Ideal))
    (fun i => by rw [val_main_v10_apply, val_main_cst_1_apply]; exact Cert.LibRecipMean.ofBits_one_f32) r

/-- The reciprocal of the clamped in-degree at one node. -/
theorem invDeg_entry (x2 : (⟨S600000, .i32⟩ : BufTy).Contents (Elt Ideal)) (r : Fin 100000) :
    Cert.KernelIdeal.Terms.invDeg x2 (ix2 r (0 : Fin 1))
      = Ideal.div (Ideal.ofBits .f32 0x3F800000#32)
          (max (val_main_v13 (F := Ideal) x2 (ix1 r)) (Ideal.ofBits .f32 0x3F800000#32)) := by
  unfold Cert.KernelIdeal.Terms.invDeg
  rw [Cert.LibKeepdims.shapeCast_a_a1_apply, Cert.LibRecipMean.hostDivf_apply, maximumf_apply, sitofp_apply,
    degWord_float, Cert.LibJoinedRows.bcast_scalar_apply]
  rfl

/-- (B4) A product with the reciprocal of the clamped in-degree is the quotient by the clamped in-degree. -/
theorem scaled_eq (x2 : (⟨S600000, .i32⟩ : BufTy).Contents (Elt Ideal)) (a : EReal) (r : Fin 100000) :
    a * Cert.KernelIdeal.Terms.invDeg x2 (ix2 r (0 : Fin 1))
      = Ideal.div a (max (val_main_v13 (F := Ideal) x2 (ix1 r)) (Ideal.ofBits .f32 0x3F800000#32)) := by
  rw [invDeg_entry, Cert.LibRecipMean.ofBits_one_f32]
  exact Cert.LibRecipMean.mul_recip_eq_div a _ (Cert.LibRecipMean.clamp_ne_zero _)

/-! ## The layers -/

/-- (B5) An array whose entries are the first layer's sums, with the neighbour term written as a product with the
    reciprocal of the clamped in-degree, is the reference's first layer. -/
theorem h1_eq (x0 : (⟨S100000x128, .f32⟩ : BufTy).Contents (Elt Ideal)) (x1 x2 : (⟨S600000, .i32⟩ : BufTy).Contents (Elt Ideal)) (x3 x4 : (⟨S128x256, .f32⟩ : BufTy).Contents (Elt Ideal)) (x5 : (⟨S256, .f32⟩ : BufTy).Contents (Elt Ideal))
    (H1 : FVec Ideal S100000x256 .f32)
    (hH1 : ∀ (r : Fin 100000) (j : Fin 256), H1 (ix2 r j)
      = max (((∑ k : Fin 128, x0 (ix2 r k) * x3 (ix2 k j))
              + (∑ k : Fin 128, (Cert.KernelIdeal.Terms.agg128 x0 x1 x2 (ix2 r k)
                    * Cert.KernelIdeal.Terms.invDeg x2 (ix2 r (0 : Fin 1))) * x4 (ix2 k j)))
             + (shapeCast Cert.KernelIdeal.S1x256 x5 Cert.KernelIdeal.Gen.shapeCasts_S256_S1x256) (ix2 (0 : Fin 1) j))
            (Ideal.ofBits .f32 0x00000000#32)) :
    H1 = val_main_v25 (F := Ideal) x0 x1 x2 x3 x4 x5 := by
  funext i
  obtain ⟨r, j, rfl⟩ : ∃ (r : Fin 100000) (j : Fin 256), i = ix2 r j := ⟨i 0, i 1, eq_ix2 i⟩
  rw [hH1, Cert.ReferenceIdeal.RefEntries.v25_entry, agg128_eq, Cert.LibRowLayout.shapeCast_b_1b_apply]
  simp only [scaled_eq]

/-- (B6) The per-node partial scores: the second layer's row times each half of the edge weights. -/
theorem s_cols (x0 : (⟨S100000x128, .f32⟩ : BufTy).Contents (Elt Ideal)) (x1 x2 : (⟨S600000, .i32⟩ : BufTy).Contents (Elt Ideal)) (x3 x4 : (⟨S128x256, .f32⟩ : BufTy).Contents (Elt Ideal)) (x5 : (⟨S256, .f32⟩ : BufTy).Contents (Elt Ideal)) (x6 x7 : (⟨S256x128, .f32⟩ : BufTy).Contents (Elt Ideal)) (x8 : (⟨S128, .f32⟩ : BufTy).Contents (Elt Ideal)) (x9 : (⟨S256x1, .f32⟩ : BufTy).Contents (Elt Ideal))
    (H1 : FVec Ideal S100000x256 .f32) (hH1 : H1 = val_main_v25 (F := Ideal) x0 x1 x2 x3 x4 x5)
    (S : FVec Ideal Cert.KernelIdeal.S100000x2 .f32)
    (hS : ∀ (r : Fin 100000) (q : Fin 2), S (ix2 r q)
      = ∑ j : Fin 128, (((∑ k : Fin 256, H1 (ix2 r k) * x6 (ix2 k j))
              + (∑ k : Fin 256, (Cert.KernelIdeal.Terms.agg256 H1 x1 x2 (ix2 r k)
                    * Cert.KernelIdeal.Terms.invDeg x2 (ix2 r (0 : Fin 1))) * x7 (ix2 k j)))
             + (shapeCast Cert.KernelIdeal.S1x128 x8 Cert.KernelIdeal.Gen.shapeCasts_S128_S1x128) (ix2 (0 : Fin 1) j))
          * Cert.KernelIdeal.Terms.edgePair x9 (ix2 j q))
    (hE0 : ∀ j : Fin 128, Cert.KernelIdeal.Terms.edgePair x9 (ix2 j (0 : Fin 2))
      = x9 (ix2 (⟨j.val, by omega⟩ : Fin 256) (0 : Fin 1)))
    (hE1 : ∀ j : Fin 128, Cert.KernelIdeal.Terms.edgePair x9 (ix2 j (1 : Fin 2))
      = x9 (ix2 (⟨128 + j.val, by omega⟩ : Fin 256) (0 : Fin 1)))
    (r : Fin 100000) :
    S (ix2 r (0 : Fin 2))
        = ∑ j : Fin 128, val_main_v50 (F := Ideal) x0 x1 x2 x3 x4 x5 x6 x7 x8 (ix2 r j)
            * x9 (ix2 (⟨j.val, by omega⟩ : Fin 256) (0 : Fin 1))
      ∧ S (ix2 r (1 : Fin 2))
        = ∑ j : Fin 128, val_main_v50 (F := Ideal) x0 x1 x2 x3 x4 x5 x6 x7 x8 (ix2 r j)
            * x9 (ix2 (⟨128 + j.val, by omega⟩ : Fin 256) (0 : Fin 1)) := by
  subst hH1
  have key : ∀ j : Fin 128,
      ((∑ k : Fin 256, val_main_v25 (F := Ideal) x0 x1 x2 x3 x4 x5 (ix2 r k) * x6 (ix2 k j))
          + (∑ k : Fin 256, (Cert.KernelIdeal.Terms.agg256 (val_main_v25 (F := Ideal) x0 x1 x2 x3 x4 x5) x1 x2 (ix2 r k)
                * Cert.KernelIdeal.Terms.invDeg x2 (ix2 r (0 : Fin 1))) * x7 (ix2 k j)))
        + (shapeCast Cert.KernelIdeal.S1x128 x8 Cert.KernelIdeal.Gen.shapeCasts_S128_S1x128) (ix2 (0 : Fin 1) j)
      = val_main_v50 (F := Ideal) x0 x1 x2 x3 x4 x5 x6 x7 x8 (ix2 r j) := fun j => by
    rw [Cert.ReferenceIdeal.RefEntries.v50_entry, v39_eq_v13, agg256_eq x0 x1 x2 x3 x4 x5 _ rfl,
      Cert.LibRowLayout.shapeCast_b_1b_apply]
    simp only [scaled_eq]
  constructor
  · rw [hS]
    exact Finset.sum_congr rfl fun j _ => by rw [key j, hE0 j]
  · rw [hS]
    exact Finset.sum_congr rfl fun j _ => by rw [key j, hE1 j]

/-- (B7) The edge scores read off the per-node partial scores are the reference's edge scores. -/
theorem final_eq (x0 : (⟨S100000x128, .f32⟩ : BufTy).Contents (Elt Ideal)) (x1 x2 : (⟨S600000, .i32⟩ : BufTy).Contents (Elt Ideal)) (x3 x4 : (⟨S128x256, .f32⟩ : BufTy).Contents (Elt Ideal)) (x5 : (⟨S256, .f32⟩ : BufTy).Contents (Elt Ideal)) (x6 x7 : (⟨S256x128, .f32⟩ : BufTy).Contents (Elt Ideal)) (x8 : (⟨S128, .f32⟩ : BufTy).Contents (Elt Ideal)) (x9 : (⟨S256x1, .f32⟩ : BufTy).Contents (Elt Ideal)) (x10 : (⟨S1, .f32⟩ : BufTy).Contents (Elt Ideal))
    (S : FVec Ideal Cert.KernelIdeal.S100000x2 .f32)
    (hS0 : ∀ r : Fin 100000, S (ix2 r (0 : Fin 2))
        = ∑ j : Fin 128, val_main_v50 (F := Ideal) x0 x1 x2 x3 x4 x5 x6 x7 x8 (ix2 r j)
            * x9 (ix2 (⟨j.val, by omega⟩ : Fin 256) (0 : Fin 1)))
    (hS1 : ∀ r : Fin 100000, S (ix2 r (1 : Fin 2))
        = ∑ j : Fin 128, val_main_v50 (F := Ideal) x0 x1 x2 x3 x4 x5 x6 x7 x8 (ix2 r j)
            * x9 (ix2 (⟨128 + j.val, by omega⟩ : Fin 256) (0 : Fin 1)))
    (hsc : ∀ e : Fin 600000, Cert.KernelIdeal.Terms.scores S x1 x2 x10 (ix2 e (0 : Fin 1))
        = (S (ix2 (Cert.Sage.nodeOf (x1 (ix1 e))) (0 : Fin 2)) + S (ix2 (Cert.Sage.nodeOf (x2 (ix1 e))) (1 : Fin 2)))
          + x10 (ix1 (0 : Fin 1))) :
    Cert.KernelIdeal.Terms.scores S x1 x2 x10 = val_main_v69 (F := Ideal) x0 x1 x2 x3 x4 x5 x6 x7 x8 x9 x10 := by
  funext i
  have h1 : i 1 = (0 : Fin 1) := Subsingleton.elim (α := Fin 1) (i 1) 0
  obtain ⟨e, rfl⟩ : ∃ e : Fin 600000, i = ix2 e (0 : Fin 1) :=
    ⟨i 0, (eq_ix2 i).trans (congrArg (ix2 (i 0)) h1)⟩
  rw [hsc, Cert.ReferenceIdeal.RefEntries.v69_entry, hS0, hS1]

/-! ## The same two statements with the kernel program's edge-weight columns and edge scores read directly -/

/-- (B6) with the paired edge weights' two columns read off the edge weights. -/
theorem s_cols_tail (x0 : (⟨S100000x128, .f32⟩ : BufTy).Contents (Elt Ideal)) (x1 x2 : (⟨S600000, .i32⟩ : BufTy).Contents (Elt Ideal)) (x3 x4 : (⟨S128x256, .f32⟩ : BufTy).Contents (Elt Ideal)) (x5 : (⟨S256, .f32⟩ : BufTy).Contents (Elt Ideal)) (x6 x7 : (⟨S256x128, .f32⟩ : BufTy).Contents (Elt Ideal)) (x8 : (⟨S128, .f32⟩ : BufTy).Contents (Elt Ideal)) (x9 : (⟨S256x1, .f32⟩ : BufTy).Contents (Elt Ideal))
    (H1 : FVec Ideal S100000x256 .f32) (hH1 : H1 = val_main_v25 (F := Ideal) x0 x1 x2 x3 x4 x5)
    (S : FVec Ideal Cert.KernelIdeal.S100000x2 .f32)
    (hS : ∀ (r : Fin 100000) (q : Fin 2), S (ix2 r q)
      = ∑ j : Fin 128, (((∑ k : Fin 256, H1 (ix2 r k) * x6 (ix2 k j))
              + (∑ k : Fin 256, (Cert.KernelIdeal.Terms.agg256 H1 x1 x2 (ix2 r k)
                    * Cert.KernelIdeal.Terms.invDeg x2 (ix2 r (0 : Fin 1))) * x7 (ix2 k j)))
             + (shapeCast Cert.KernelIdeal.S1x128 x8 Cert.KernelIdeal.Gen.shapeCasts_S128_S1x128) (ix2 (0 : Fin 1) j))
          * Cert.KernelIdeal.Terms.edgePair x9 (ix2 j q))
    (r : Fin 100000) :
    S (ix2 r (0 : Fin 2))
        = ∑ j : Fin 128, val_main_v50 (F := Ideal) x0 x1 x2 x3 x4 x5 x6 x7 x8 (ix2 r j)
            * x9 (ix2 (⟨j.val, by omega⟩ : Fin 256) (0 : Fin 1))
      ∧ S (ix2 r (1 : Fin 2))
        = ∑ j : Fin 128, val_main_v50 (F := Ideal) x0 x1 x2 x3 x4 x5 x6 x7 x8 (ix2 r j)
            * x9 (ix2 (⟨128 + j.val, by omega⟩ : Fin 256) (0 : Fin 1)) :=
  s_cols x0 x1 x2 x3 x4 x5 x6 x7 x8 x9 H1 hH1 S hS
    (fun j => Cert.KernelIdeal.Tail.edgePair_col0 x9 j) (fun j => Cert.KernelIdeal.Tail.edgePair_col1 x9 j) r

/-- (B7) with the kernel program's edge scores read off the per-node partial scores. -/
theorem final_eq_tail (x0 : (⟨S100000x128, .f32⟩ : BufTy).Contents (Elt Ideal)) (x1 x2 : (⟨S600000, .i32⟩ : BufTy).Contents (Elt Ideal)) (x3 x4 : (⟨S128x256, .f32⟩ : BufTy).Contents (Elt Ideal)) (x5 : (⟨S256, .f32⟩ : BufTy).Contents (Elt Ideal)) (x6 x7 : (⟨S256x128, .f32⟩ : BufTy).Contents (Elt Ideal)) (x8 : (⟨S128, .f32⟩ : BufTy).Contents (Elt Ideal)) (x9 : (⟨S256x1, .f32⟩ : BufTy).Contents (Elt Ideal)) (x10 : (⟨S1, .f32⟩ : BufTy).Contents (Elt Ideal))
    (S : FVec Ideal Cert.KernelIdeal.S100000x2 .f32)
    (hS0 : ∀ r : Fin 100000, S (ix2 r (0 : Fin 2))
        = ∑ j : Fin 128, val_main_v50 (F := Ideal) x0 x1 x2 x3 x4 x5 x6 x7 x8 (ix2 r j)
            * x9 (ix2 (⟨j.val, by omega⟩ : Fin 256) (0 : Fin 1)))
    (hS1 : ∀ r : Fin 100000, S (ix2 r (1 : Fin 2))
        = ∑ j : Fin 128, val_main_v50 (F := Ideal) x0 x1 x2 x3 x4 x5 x6 x7 x8 (ix2 r j)
            * x9 (ix2 (⟨128 + j.val, by omega⟩ : Fin 256) (0 : Fin 1))) :
    Cert.KernelIdeal.Terms.scores S x1 x2 x10 = val_main_v69 (F := Ideal) x0 x1 x2 x3 x4 x5 x6 x7 x8 x9 x10 :=
  final_eq x0 x1 x2 x3 x4 x5 x6 x7 x8 x9 x10 S hS0 hS1 (fun e => Cert.KernelIdeal.Tail.scores_entry S x1 x2 x10 e)

end Cert.Bridge

end
-- ==== Proof.KValue.lean ====
/-
  The kernel program's result against the reference's last stage, on one set of argument arrays. The first region's
  result array is, entry by entry, the first layer's rectified sum (features times the self weights, plus the neighbour
  sums scaled by the reciprocal clamped in-degree times the neighbour weights, plus the bias); the second region's
  result holds each node's second-layer row contracted with each half of the edge weights; the program's result adds
  the source's first half, the destination's second half and the edge bias. Each step meets the reference's stage of
  the same arrays, so the two programs' results are one array.
-/
import proofs.«131474_j31662498906598_2_alg».proof.Proof.KRun
import proofs.«131474_j31662498906598_2_alg».proof.Proof.KFolds
import proofs.«131474_j31662498906598_2_alg».proof.Proof.KRegion0
import proofs.«131474_j31662498906598_2_alg».proof.Proof.KRegion1
import proofs.«131474_j31662498906598_2_alg».proof.Proof.Bridge

set_option maxRecDepth 16384

noncomputable section

open scoped BigOperators

namespace Cert.KernelIdeal.KValue

open Cert.KernelIdeal Cert.KernelIdeal.Gen Cert.KernelIdeal.Terms Cert.KernelIdeal.Folds
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The launch arrays, typed as arrays of extended reals / words. -/
abbrev aX : S100000x128.Idx → EReal := m ((c.tc : Thread nD τ).loc main_arg0)
abbrev aSrc : IVec S600000 32 := m ((c.tc : Thread nD τ).loc main_arg1)
abbrev aDst : IVec S600000 32 := m ((c.tc : Thread nD τ).loc main_arg2)
abbrev aWs1 : S128x256.Idx → EReal := m ((c.tc : Thread nD τ).loc main_arg3)
abbrev aWn1 : S128x256.Idx → EReal := m ((c.tc : Thread nD τ).loc main_arg4)
abbrev aB1 : S256.Idx → EReal := m ((c.tc : Thread nD τ).loc main_arg5)
abbrev aWs2 : S256x128.Idx → EReal := m ((c.tc : Thread nD τ).loc main_arg6)
abbrev aWn2 : S256x128.Idx → EReal := m ((c.tc : Thread nD τ).loc main_arg7)
abbrev aB2 : S128.Idx → EReal := m ((c.tc : Thread nD τ).loc main_arg8)
abbrev aWe : S256x1.Idx → EReal := m ((c.tc : Thread nD τ).loc main_arg9)
abbrev aBe : S1.Idx → EReal := m ((c.tc : Thread nD τ).loc main_arg10)

/-- The first region's result, entry by entry, over the launch arrays. -/
theorem H1_entry (r : Fin 100000) (j : Fin 256) :
    H1 m ρ c (ix2 r j)
      = max (((∑ k : Fin 128, aX m c (ix2 r k) * aWs1 m c (ix2 k j))
              + (∑ k : Fin 128, (agg128 (aX m c) (aSrc m c) (aDst m c) (ix2 r k) * invDeg (aDst m c) (ix2 r (0 : Fin 1)))
                    * aWn1 m c (ix2 k j)))
             + (shapeCast S1x256 (aB1 m c) shapeCasts_S256_S1x256) (ix2 (0 : Fin 1) j))
            (Ideal.ofBits .f32 0x00000000#32) := by
  refine (Cert.KernelIdeal.RegionValue.region0_entry (V1 m ρ) c r j).trans ?_
  rw [show V1 m ρ c main_arg0 = m ((c.tc : Thread nD τ).loc main_arg0) from W1_arg0 m ρ c,
    show V1 m ρ c main_call0_v19 = _ from W1_v19 m ρ c,
    show V1 m ρ c main_call0_v9 = _ from W1_v9 m ρ c,
    show V1 m ρ c main_arg3 = m ((c.tc : Thread nD τ).loc main_arg3) from W1_arg3 m ρ c,
    show V1 m ρ c main_arg4 = m ((c.tc : Thread nD τ).loc main_arg4) from W1_arg4 m ρ c,
    show V1 m ρ c main_call0_v20 = _ from W1_v20 m ρ c]
  rfl

/-- The second region's result, entry by entry, over the first region's result and the launch arrays. -/
theorem S2_entry (r : Fin 100000) (q : Fin 2) :
    S2 m ρ c (ix2 r q)
      = ∑ j : Fin 128, (((∑ k : Fin 256, H1 m ρ c (ix2 r k) * aWs2 m c (ix2 k j))
              + (∑ k : Fin 256, (agg256 (H1 m ρ c) (aSrc m c) (aDst m c) (ix2 r k) * invDeg (aDst m c) (ix2 r (0 : Fin 1)))
                    * aWn2 m c (ix2 k j)))
             + (shapeCast S1x128 (aB2 m c) shapeCasts_S128_S1x128) (ix2 (0 : Fin 1) j))
          * edgePair (aWe m c) (ix2 j q) := by
  refine (Cert.KernelIdeal.RegionValue.region1_entry (V3 m ρ) c r q).trans ?_
  rw [show V3 m ρ c main_call0_v21 = _ from W3_v21 m ρ c,
    show V3 m ρ c main_call0_v31 = _ from W3_v31 m ρ c,
    show V3 m ρ c main_call0_v9 = _ from W3_v9 m ρ c,
    show V3 m ρ c main_arg6 = m ((c.tc : Thread nD τ).loc main_arg6) from W3_arg6 m ρ c,
    show V3 m ρ c main_arg7 = m ((c.tc : Thread nD τ).loc main_arg7) from W3_arg7 m ρ c,
    show V3 m ρ c main_call0_v35 = _ from W3_v35 m ρ c,
    show V3 m ρ c main_call0_v34 = _ from W3_v34 m ρ c]
  rfl

/-- The first region's result is the reference's rectified first layer. -/
theorem H1_eq : H1 m ρ c = Cert.ReferenceIdeal.Read.val_main_v25 (F := Ideal) (aX m c) (aSrc m c) (aDst m c) (aWs1 m c) (aWn1 m c) (aB1 m c) :=
  Cert.Bridge.h1_eq (aX m c) (aSrc m c) (aDst m c) (aWs1 m c) (aWn1 m c) (aB1 m c) (H1 m ρ c) (H1_entry m ρ c)

/-- The edge scores the kernel program leaves are the reference's last stage of the same argument arrays. -/
theorem scores_eq :
    scores (S2 m ρ c) (aSrc m c) (aDst m c) (aBe m c)
      = Cert.ReferenceIdeal.Read.val_main_v69 (F := Ideal) (aX m c) (aSrc m c) (aDst m c) (aWs1 m c) (aWn1 m c) (aB1 m c)
          (aWs2 m c) (aWn2 m c) (aB2 m c) (aWe m c) (aBe m c) :=
  Cert.Bridge.final_eq_tail (aX m c) (aSrc m c) (aDst m c) (aWs1 m c) (aWn1 m c) (aB1 m c) (aWs2 m c) (aWn2 m c) (aB2 m c) (aWe m c) (aBe m c)
    (S2 m ρ c)
    (fun r => (Cert.Bridge.s_cols_tail (aX m c) (aSrc m c) (aDst m c) (aWs1 m c) (aWn1 m c) (aB1 m c) (aWs2 m c) (aWn2 m c) (aB2 m c) (aWe m c)
      (H1 m ρ c) (H1_eq m ρ c) (S2 m ρ c) (S2_entry m ρ c) r).1)
    (fun r => (Cert.Bridge.s_cols_tail (aX m c) (aSrc m c) (aDst m c) (aWs1 m c) (aWn1 m c) (aB1 m c) (aWs2 m c) (aWn2 m c) (aB2 m c) (aWe m c)
      (H1 m ρ c) (H1_eq m ρ c) (S2 m ρ c) (S2_entry m ρ c) r).2)

/-- The kernel program's run: every weakly fair execution terminates with the result array at the reference's last
    stage of the launch arrays, and the arguments unchanged. -/
theorem run :
    θ_run defs (onTc (τ := τ) (main (F := Ideal))) ⟨m, fun _ => 0, ρ⟩ (fun r => ∀ c : Dev nD,
      r.2.mem ((c.tc : Thread nD τ).loc main_v0)
        = Cert.ReferenceIdeal.Read.val_main_v69 (F := Ideal) (aX m c) (aSrc m c) (aDst m c) (aWs1 m c) (aWn1 m c) (aB1 m c)
            (aWs2 m c) (aWn2 m c) (aB2 m c) (aWe m c) (aBe m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1.trans (W5_v0 m ρ c)).trans (scores_eq m ρ c), (h c).2⟩)
    (Cert.KernelIdeal.RunValue.run_value (F := Ideal) m ρ)

end Cert.KernelIdeal.KValue

end
-- ==== Proof.lean ====
/-
  A two-layer mean-aggregating graph network with an edge scorer, over 100000 nodes and 600000 directed edges,
  against its plain array reference, equal over the extended reals.

  Both programs form, for every node, the sum of its in-neighbours' feature rows (rows gathered at the edges' source
  endpoints, a negative endpoint word wrapped by the node count and an out-of-range one clamped, and summed into the
  destination rows) and the node's in-degree. A layer is  h·W_self + mean·W_neigh + b  with  mean = sum / max(degree, 1);
  the first layer is followed by a maximum with zero. The reference scores an edge by joining the second-layer rows of
  its two endpoints into one row of 256 entries and contracting it with the edge weights, then adding the edge bias.

  The kernel program differs in three places, none of which changes the value:
  * it counts the in-degree in 32-bit integer words and converts the count to a float; 600000 ones cannot wrap a
    32-bit word, so the converted count is the float count;
  * it multiplies the neighbour sums by the reciprocal 1 / max(degree, 1) where the reference divides by
    max(degree, 1); the divisor is at least one, so the product with its reciprocal is the quotient for every
    extended real, infinite sums included;
  * it never forms the second-layer rows as an array: each node's row is contracted at once with the two halves of
    the edge weights laid side by side (rows 0 … 127 and rows 128 … 255 of the weights), and an edge's score is the
    source's first contraction plus the destination's second plus the bias; a sum of 256 products splits into its
    first 128 and its last 128 terms, so this is the reference's contraction of the joined row.
  Changes of float format inside the two tiled regions are the identity at the ideal instance, a tiled matrix product
  into a zero accumulator is the plain sum of products, and the tiles of 5000 (first layer) and 4000 (second layer)
  node rows cover the 100000 rows exactly once.

  No step needs the inputs to be finite: the precondition is never opened.
-/
import proofs.«131474_j31662498906598_2_alg».proof.Defs
import proofs.«131474_j31662498906598_2_alg».proof.Proof.Gen.Kernel
import proofs.«131474_j31662498906598_2_alg».proof.Proof.Gen.Kernel.Skeleton
import proofs.«131474_j31662498906598_2_alg».proof.Proof.Gen.Kernel.Launch
import proofs.«131474_j31662498906598_2_alg».proof.Proof.Gen.Kernel.Points
import proofs.«131474_j31662498906598_2_alg».proof.Proof.Gen.Kernel.Frame
import proofs.«131474_j31662498906598_2_alg».proof.Proof.Gen.KernelIdeal
import proofs.«131474_j31662498906598_2_alg».proof.Proof.Gen.KernelIdeal.Skeleton
import proofs.«131474_j31662498906598_2_alg».proof.Proof.Gen.KernelIdeal.Launch
import proofs.«131474_j31662498906598_2_alg».proof.Proof.Gen.KernelIdeal.Points
import proofs.«131474_j31662498906598_2_alg».proof.Proof.Gen.KernelIdeal.Frame
import proofs.«131474_j31662498906598_2_alg».proof.Proof.Gen.ReferenceIdeal
import proofs.«131474_j31662498906598_2_alg».proof.Proof.Gen.Pre_finite_inputs
import proofs.«131474_j31662498906598_2_alg».proof.Proof.Gen.ReferenceIdeal.Run
import proofs.«131474_j31662498906598_2_alg».proof.Proof.Gen.ReferenceIdeal.Read
import proofs.«131474_j31662498906598_2_alg».proof.Proof.KValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The kernel program read at the ideal instance runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the reference's last stage of those arguments
    in their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v69_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
